-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S4 .f32) (main_arg6 : FVec F S4x2 .f32) (main_arg7 : FVec F S2 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S500000x128 .f32) (main_arg1 : IVec S2x16000000 32) (main_arg2 : FVec F S128x4 .f32) (main_arg3 : FVec F S4 .f32) (main_arg4 : FVec F S4x4 .f32) (main_arg5 : FVec F S4 .f32) (main_arg6 : FVec F S4x2 .f32) (main_arg7 : FVec F S2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_v13 main_v16
-- ==== Kernel.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x1 : Shape := ⟨2, ![500000, 1]⟩
abbrev S500000x4 : Shape := ⟨2, ![500000, 4]⟩
abbrev S5000x128 : Shape := ⟨2, ![5000, 128]⟩
abbrev S5000x1 : Shape := ⟨2, ![5000, 1]⟩
abbrev S5000x4 : Shape := ⟨2, ![5000, 4]⟩
abbrev S16500000x4 : Shape := ⟨2, ![16500000, 4]⟩
abbrev S1x4 : Shape := ⟨2, ![1, 4]⟩
abbrev S500000x2 : Shape := ⟨2, ![500000, 2]⟩
abbrev S16500000x2 : Shape := ⟨2, ![16500000, 2]⟩
abbrev S1x2 : Shape := ⟨2, ![1, 2]⟩

abbrev nBuf : Space → Nat
  | .hbm => 97
  | .vmem => 7
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S1x16000000, .i32⟩
  | .hbm, ⟨9, _⟩ => ⟨S16000000, .i32⟩
  | .hbm, ⟨10, _⟩ => ⟨S1x16000000, .i32⟩
  | .hbm, ⟨11, _⟩ => ⟨S16000000, .i32⟩
  | .hbm, ⟨12, _⟩ => ⟨S500000, .i32⟩
  | .hbm, ⟨13, _⟩ => ⟨S16500000, .i32⟩
  | .hbm, ⟨14, _⟩ => ⟨S16500000, .i32⟩
  | .hbm, ⟨15, _⟩ => ⟨S_, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S500000x1, .f32⟩
  | .hbm, ⟨30, _⟩ => ⟨S500000x4, .f32⟩
  | .hbm, ⟨31, _⟩ => ⟨S_, .i32⟩
  | .hbm, ⟨32, _⟩ => ⟨S16500000, .i32⟩
  | .hbm, ⟨33, _⟩ => ⟨S16500000, .i1⟩
  | .hbm, ⟨34, _⟩ => ⟨S_, .i32⟩
  | .hbm, ⟨35, _⟩ => ⟨S16500000, .i32⟩
  | .hbm, ⟨36, _⟩ => ⟨S16500000, .i32⟩
  | .hbm, ⟨37, _⟩ => ⟨S16500000, .i32⟩
  | .hbm, ⟨38, _⟩ => ⟨S16500000x1, .i32⟩
  | .hbm, ⟨39, _⟩ => ⟨S16500000x4, .f32⟩
  | .hbm, ⟨40, _⟩ => ⟨S_, .f32⟩
  | .hbm, ⟨41, _⟩ => ⟨S500000x4, .f32⟩
  | .hbm, ⟨42, _⟩ => ⟨S16500000x1, .i32⟩
  | .hbm, ⟨43, _⟩ => ⟨S500000x4, .f32⟩
  | .hbm, ⟨44, _⟩ => ⟨S500000x4, .f32⟩
  | .hbm, ⟨45, _⟩ => ⟨S500000x4, .f32⟩
  | .hbm, ⟨46, _⟩ => ⟨S1x4, .f32⟩
  | .hbm, ⟨47, _⟩ => ⟨S500000x4, .f32⟩
  | .hbm, ⟨48, _⟩ => ⟨S500000x4, .f32⟩
  | .hbm, ⟨49, _⟩ => ⟨S_, .f32⟩
  | .hbm, ⟨50, _⟩ => ⟨S500000x4, .f32⟩
  | .hbm, ⟨51, _⟩ => ⟨S500000x4, .f32⟩
  | .hbm, ⟨52, _⟩ => ⟨S500000x4, .f32⟩
  | .hbm, ⟨53, _⟩ => ⟨S500000x4, .f32⟩
  | .hbm, ⟨54, _⟩ => ⟨S500000x4, .f32⟩
  | .hbm, ⟨55, _⟩ => ⟨S_, .i32⟩
  | .hbm, ⟨56, _⟩ => ⟨S16500000, .i32⟩
  | .hbm, ⟨57, _⟩ => ⟨S16500000, .i1⟩
  | .hbm, ⟨58, _⟩ => ⟨S_, .i32⟩
  | .hbm, ⟨59, _⟩ => ⟨S16500000, .i32⟩
  | .hbm, ⟨60, _⟩ => ⟨S16500000, .i32⟩
  | .hbm, ⟨61, _⟩ => ⟨S16500000, .i32⟩
  | .hbm, ⟨62, _⟩ => ⟨S16500000x1, .i32⟩
  | .hbm, ⟨63, _⟩ => ⟨S16500000x4, .f32⟩
  | .hbm, ⟨64, _⟩ => ⟨S_, .f32⟩
  | .hbm, ⟨65, _⟩ => ⟨S500000x4, .f32⟩
  | .hbm, ⟨66, _⟩ => ⟨S16500000x1, .i32⟩
  | .hbm, ⟨67, _⟩ => ⟨S500000x4, .f32⟩
  | .hbm, ⟨68, _⟩ => ⟨S500000x4, .f32⟩
  | .hbm, ⟨69, _⟩ => ⟨S500000x4, .f32⟩
  | .hbm, ⟨70, _⟩ => ⟨S1x4, .f32⟩
  | .hbm, ⟨71, _⟩ => ⟨S500000x4, .f32⟩
  | .hbm, ⟨72, _⟩ => ⟨S500000x4, .f32⟩
  | .hbm, ⟨73, _⟩ => ⟨S_, .f32⟩
  | .hbm, ⟨74, _⟩ => ⟨S500000x4, .f32⟩
  | .hbm, ⟨75, _⟩ => ⟨S500000x4, .f32⟩
  | .hbm, ⟨76, _⟩ => ⟨S500000x2, .f32⟩
  | .hbm, ⟨77, _⟩ => ⟨S500000x2, .f32⟩
  | .hbm, ⟨78, _⟩ => ⟨S500000x2, .f32⟩
  | .hbm, ⟨79, _⟩ => ⟨S_, .i32⟩
  | .hbm, ⟨80, _⟩ => ⟨S16500000, .i32⟩
  | .hbm, ⟨81, _⟩ => ⟨S16500000, .i1⟩
  | .hbm, ⟨82, _⟩ => ⟨S_, .i32⟩
  | .hbm, ⟨83, _⟩ => ⟨S16500000, .i32⟩
  | .hbm, ⟨84, _⟩ => ⟨S16500000, .i32⟩
  | .hbm, ⟨85, _⟩ => ⟨S16500000, .i32⟩
  | .hbm, ⟨86, _⟩ => ⟨S16500000x1, .i32⟩
  | .hbm, ⟨87, _⟩ => ⟨S16500000x2, .f32⟩
  | .hbm, ⟨88, _⟩ => ⟨S_, .f32⟩
  | .hbm, ⟨89, _⟩ => ⟨S500000x2, .f32⟩
  | .hbm, ⟨90, _⟩ => ⟨S16500000x1, .i32⟩
  | .hbm, ⟨91, _⟩ => ⟨S500000x2, .f32⟩
  | .hbm, ⟨92, _⟩ => ⟨S500000x2, .f32⟩
  | .hbm, ⟨93, _⟩ => ⟨S500000x2, .f32⟩
  | .hbm, ⟨94, _⟩ => ⟨S1x2, .f32⟩
  | .hbm, ⟨95, _⟩ => ⟨S500000x2, .f32⟩
  | .hbm, ⟨96, _⟩ => ⟨S500000x2, .f32⟩
  | .local _ .vmem, ⟨0, _⟩ => ⟨S5000x128, .f32⟩
  | .local _ .vmem, ⟨1, _⟩ => ⟨S5000x128, .f32⟩
  | .local _ .vmem, ⟨2, _⟩ => ⟨S128x4, .f32⟩
  | .local _ .vmem, ⟨3, _⟩ => ⟨S5000x1, .f32⟩
  | .local _ .vmem, ⟨4, _⟩ => ⟨S5000x1, .f32⟩
  | .local _ .vmem, ⟨5, _⟩ => ⟨S5000x4, .f32⟩
  | .local _ .vmem, ⟨6, _⟩ => ⟨S5000x4, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call2_cst : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S500000_S500000x1_0 : S500000.BroadcastsInDim S500000x1 (![0] : Fin 1 → Fin S500000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  bcast_S_S500000x4 : S_.BroadcastsInDim S500000x4 (![] : Fin 0 → Fin S500000x4.rank)
  bcast_S500000x1_S500000x4_0_1 : S500000x1.BroadcastsInDim S500000x4 (![0, 1] : Fin 2 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S500000x1_S500000x2_0_1 : S500000x1.BroadcastsInDim S500000x2 (![0, 1] : Fin 2 → Fin S500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S16500000x1_S16500000_n_0_0_1_wf : ScatterDims.WF S500000 S16500000x1 S16500000 [] [0] [0] 1
  dot_S5000x128_S128x4_S5000x4_1_0_0_1_n_n_wf : DotDims.WF S5000x128 S128x4 S5000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x4.size a ≤ S500000x4.size a
  hwx0_3 : ∀ i : grid0.Coords, EltTy.bits .f32 = 32 ∨ (Rect.block (s := S500000x4) S5000x4.size (cc0_transform_3 i) (hinb0_3 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S2x16000000 : Shape := ⟨2, ![2, 16000000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S16500000x4 : Shape := ⟨2, ![16500000, 4]⟩
abbrev S1x4 : Shape := ⟨2, ![1, 4]⟩
abbrev S500000x2 : Shape := ⟨2, ![500000, 2]⟩
abbrev S16500000x2 : Shape := ⟨2, ![16500000, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S500000, .i32⟩
  | .hbm, ⟨9, _⟩ => ⟨S1x16000000, .i32⟩
  | .hbm, ⟨10, _⟩ => ⟨S16000000, .i32⟩
  | .hbm, ⟨11, _⟩ => ⟨S16500000, .i32⟩
  | .hbm, ⟨12, _⟩ => ⟨S1x16000000, .i32⟩
  | .hbm, ⟨13, _⟩ => ⟨S16000000, .i32⟩
  | .hbm, ⟨14, _⟩ => ⟨S16500000, .i32⟩
  | .hbm, ⟨15, _⟩ => ⟨S_, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S500000, .f32⟩
  | .hbm, ⟨25, _⟩ => ⟨S_, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S_, .i32⟩
  | .hbm, ⟨30, _⟩ => ⟨S16500000, .i32⟩
  | .hbm, ⟨31, _⟩ => ⟨S16500000, .i1⟩
  | .hbm, ⟨32, _⟩ => ⟨S_, .i32⟩
  | .hbm, ⟨33, _⟩ => ⟨S16500000, .i32⟩
  | .hbm, ⟨34, _⟩ => ⟨S16500000, .i32⟩
  | .hbm, ⟨35, _⟩ => ⟨S16500000, .i32⟩
  | .hbm, ⟨36, _⟩ => ⟨S16500000x1, .i32⟩
  | .hbm, ⟨37, _⟩ => ⟨S16500000, .f32⟩
  | .hbm, ⟨38, _⟩ => ⟨S_, .i32⟩
  | .hbm, ⟨39, _⟩ => ⟨S16500000, .i32⟩
  | .hbm, ⟨40, _⟩ => ⟨S16500000, .i1⟩
  | .hbm, ⟨41, _⟩ => ⟨S_, .i32⟩
  | .hbm, ⟨42, _⟩ => ⟨S16500000, .i32⟩
  | .hbm, ⟨43, _⟩ => ⟨S16500000, .i32⟩
  | .hbm, ⟨44, _⟩ => ⟨S16500000, .i32⟩
  | .hbm, ⟨45, _⟩ => ⟨S16500000x1, .i32⟩
  | .hbm, ⟨46, _⟩ => ⟨S16500000, .f32⟩
  | .hbm, ⟨47, _⟩ => ⟨S16500000, .f32⟩
  | .hbm, ⟨48, _⟩ => ⟨S500000x4, .f32⟩
  | .hbm, ⟨49, _⟩ => ⟨S16500000x1, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x4, .f32⟩
  | .hbm, ⟨60, _⟩ => ⟨S16500000x4, .f32⟩
  | .hbm, ⟨61, _⟩ => ⟨S_, .f32⟩
  | .hbm, ⟨62, _⟩ => ⟨S500000x4, .f32⟩
  | .hbm, ⟨63, _⟩ => ⟨S16500000x1, .i32⟩
  | .hbm, ⟨64, _⟩ => ⟨S500000x4, .f32⟩
  | .hbm, ⟨65, _⟩ => ⟨S1x4, .f32⟩
  | .hbm, ⟨66, _⟩ => ⟨S500000x4, .f32⟩
  | .hbm, ⟨67, _⟩ => ⟨S500000x4, .f32⟩
  | .hbm, ⟨68, _⟩ => ⟨S_, .f32⟩
  | .hbm, ⟨69, _⟩ => ⟨S500000x4, .f32⟩
  | .hbm, ⟨70, _⟩ => ⟨S500000x4, .f32⟩
  | .hbm, ⟨71, _⟩ => ⟨S500000x4, .f32⟩
  | .hbm, ⟨72, _⟩ => ⟨S16500000x1, .f32⟩
  | .hbm, ⟨73, _⟩ => ⟨S_, .i32⟩
  | .hbm, ⟨74, _⟩ => ⟨S16500000, .i32⟩
  | .hbm, ⟨75, _⟩ => ⟨S16500000, .i1⟩
  | .hbm, ⟨76, _⟩ => ⟨S_, .i32⟩
  | .hbm, ⟨77, _⟩ => ⟨S16500000, .i32⟩
  | .hbm, ⟨78, _⟩ => ⟨S16500000, .i32⟩
  | .hbm, ⟨79, _⟩ => ⟨S16500000, .i32⟩
  | .hbm, ⟨80, _⟩ => ⟨S16500000x1, .i32⟩
  | .hbm, ⟨81, _⟩ => ⟨S16500000x4, .f32⟩
  | .hbm, ⟨82, _⟩ => ⟨S16500000x4, .f32⟩
  | .hbm, ⟨83, _⟩ => ⟨S16500000x4, .f32⟩
  | .hbm, ⟨84, _⟩ => ⟨S_, .f32⟩
  | .hbm, ⟨85, _⟩ => ⟨S500000x4, .f32⟩
  | .hbm, ⟨86, _⟩ => ⟨S16500000x1, .i32⟩
  | .hbm, ⟨87, _⟩ => ⟨S500000x4, .f32⟩
  | .hbm, ⟨88, _⟩ => ⟨S1x4, .f32⟩
  | .hbm, ⟨89, _⟩ => ⟨S500000x4, .f32⟩
  | .hbm, ⟨90, _⟩ => ⟨S500000x4, .f32⟩
  | .hbm, ⟨91, _⟩ => ⟨S_, .f32⟩
  | .hbm, ⟨92, _⟩ => ⟨S500000x4, .f32⟩
  | .hbm, ⟨93, _⟩ => ⟨S500000x4, .f32⟩
  | .hbm, ⟨94, _⟩ => ⟨S500000x2, .f32⟩
  | .hbm, ⟨95, _⟩ => ⟨S16500000x1, .f32⟩
  | .hbm, ⟨96, _⟩ => ⟨S_, .i32⟩
  | .hbm, ⟨97, _⟩ => ⟨S16500000, .i32⟩
  | .hbm, ⟨98, _⟩ => ⟨S16500000, .i1⟩
  | .hbm, ⟨99, _⟩ => ⟨S_, .i32⟩
  | .hbm, ⟨100, _⟩ => ⟨S16500000, .i32⟩
  | .hbm, ⟨101, _⟩ => ⟨S16500000, .i32⟩
  | .hbm, ⟨102, _⟩ => ⟨S16500000, .i32⟩
  | .hbm, ⟨103, _⟩ => ⟨S16500000x1, .i32⟩
  | .hbm, ⟨104, _⟩ => ⟨S16500000x2, .f32⟩
  | .hbm, ⟨105, _⟩ => ⟨S16500000x2, .f32⟩
  | .hbm, ⟨106, _⟩ => ⟨S16500000x2, .f32⟩
  | .hbm, ⟨107, _⟩ => ⟨S_, .f32⟩
  | .hbm, ⟨108, _⟩ => ⟨S500000x2, .f32⟩
  | .hbm, ⟨109, _⟩ => ⟨S16500000x1, .i32⟩
  | .hbm, ⟨110, _⟩ => ⟨S500000x2, .f32⟩
  | .hbm, ⟨111, _⟩ => ⟨S1x2, .f32⟩
  | .hbm, ⟨112, _⟩ => ⟨S500000x2, .f32⟩
  | .hbm, ⟨113, _⟩ => ⟨S500000x2, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x128_S128x4_S500000x4_1_0_0_1_n_n_wf : DotDims.WF S500000x128 S128x4 S500000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf

class Facts : Prop extends Facts₀ where

variable [Facts]
-- ==== Proof.FrameKernel.lean ====
/-
  The frame of the program: it runs to the end, nothing faults, and every argument array ends as it was launched;
  and, beyond the frame, what every buffer holds when it ends.

  @main is three stretches of host lines (the edge lists, the degrees and the per-node factor, its column), one
  region, and five stretches of host lines after it. The region is a grid of 100 points; at point t the body reads
  rows 5000·t … 5000·t + 4999 of the node features, the whole weight matrix and the same rows of the factor column,
  and stores the product of the factor with the matrix product into the same rows of its result, which it covers
  whole. Nothing is carried from one point to the next, so the region's invariant is the scoped rest, untouched.
  The lines after the region read the region's result and the arrays the earlier lines wrote; each writes one
  buffer of its own, none of them an array the region stages, and allocates nothing: that is what the run around
  a region asks of them.
-/
import proofs.«141974_j28269474742564_2_alg».proof.Proof.Gen.Kernel.Launch
import proofs.«141974_j28269474742564_2_alg».proof.Proof.Gen.Kernel.Skeleton
import proofs.«141974_j28269474742564_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host lines before the region, in order. -/
abbrev linesBefore : List (List (HloOp τ sig (Elt F))) := [hostOps0, hostOps0_1, hostOps0_2]
/-- The stretches of host lines after the region, in order. -/
abbrev linesAfter : List (List (HloOp τ sig (Elt F))) := [hostOps1, hostOps1_1, hostOps1_2, hostOps1_3, hostOps1_4]

/-- Core `c`'s buffer contents when the region is entered: the launch contents after the lines before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 8000000 in
/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- Every line after the region, as one list. -/
theorem mem_linesAfter {P : HloOp τ sig (Elt F) → Prop}
    (h1 : (hostOps1 : List (HloOp τ sig (Elt F))).Forall P) (h2 : (hostOps1_1 : List (HloOp τ sig (Elt F))).Forall P)
    (h3 : (hostOps1_2 : List (HloOp τ sig (Elt F))).Forall P) (h4 : (hostOps1_3 : List (HloOp τ sig (Elt F))).Forall P)
    (h5 : (hostOps1_4 : List (HloOp τ sig (Elt F))).Forall P) :
    ∀ ops ∈ ([hostOps1, hostOps1_1, hostOps1_2, hostOps1_3, hostOps1_4] : List (List (HloOp τ sig (Elt F)))), ∀ op ∈ ops, P op := by
  intro ops hops op hop
  simp only [List.mem_cons, List.mem_nil_iff, or_false] at hops
  rcases hops with rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop

/-- The lines after the region touch the region's arrays and the buffers that bypass it only: each line's buffers are
    unscoped TensorCore references, and with nothing prefetched every such reference is one or the other. -/
theorem after_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem after_fresh : ∀ ops ∈ ([hostOps1, hostOps1_1, hostOps1_2, hostOps1_3, hostOps1_4] : List (List (HloOp τ sig (Elt F)))), ∀ op ∈ ops, op.fresh = ∅ :=
  mem_linesAfter hostOps1_fresh hostOps1_1_fresh hostOps1_2_fresh hostOps1_3_fresh hostOps1_4_fresh

/-- A line that writes one buffer, and that buffer none of the four arrays the region stages (the node features, the
    weight matrix, the factor column, the region's result), writes no array of the region. -/
theorem keeps_of_ne {op : HloOp τ sig (Elt F)} {y : Ref sig .tc} (hw : op.writes = {Proc.devRef .tc y})
    (h0 : main_arg0 ≠ y) (h1 : main_arg2 ≠ y) (h2 : main_v15 ≠ y) (h3 : main_v16 ≠ y) :
    ∀ w, Proc.devRef .tc (Pipeline.arrRef spec0 w) ∉ op.writes := by
  intro w
  rw [hw, Finset.mem_singleton]
  fin_cases w
  · exact StableHlo.devRef_ne_of_ne h0
  · exact StableHlo.devRef_ne_of_ne h1
  · exact StableHlo.devRef_ne_of_ne h2
  · exact StableHlo.devRef_ne_of_ne h3

set_option maxHeartbeats 2000000 in
/-- And they write no array of the region: each writes only its own result buffer, which is none of the four. -/
theorem after_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  mem_linesAfter
    (by
      simp only [hostOps1, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_1, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_2, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_3, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_4, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))

/-! ## The argument arrays before and after -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line after the region writes `main_arg1`, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`, and the region does not stage it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`, and the region does not stage it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data whose array is the region-entry contents and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data whose array is the region-entry contents and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a run around the region -/

/-- For any proof data whose arrays are the region-entry contents, a run to the library's post — every staged array at
    what the write-backs leave, every other unscoped buffer as the later lines leave it — ends with every argument array
    as launched: a staged input is never written back, the others are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## What the body leaves in the result window's buffer -/

/-- The whole block of node features, of the weight matrix, of the factor column and of the result. -/
abbrev rX : Rect S5000x128 := Rect.unit (s := S5000x128) ![0, 0] S5000x128.size inb_S5000x128_S5000x128_0_0
abbrev rW : Rect S128x4 := Rect.unit (s := S128x4) ![0, 0] S128x4.size inb_S128x4_S128x4_0_0
abbrev rD : Rect S5000x1 := Rect.unit (s := S5000x1) ![0, 0] S5000x1.size inb_S5000x1_S5000x1_0_0
abbrev rO : Rect S5000x4 := Rect.unit (s := S5000x4) ![0, 0] S5000x4.size inb_S5000x4_S5000x4_0_0

/-- The result window's buffer after the body, from the three input blocks: its one store, of the whole block. -/
def out0_3 (x0 : Vec F S5000x128 .f32) (x1 : Vec F S128x4 .f32) (x2 : Vec F S5000x1 .f32) : Vec F S5000x4 .f32 :=
  View.canon [⟨rO, k0_pay1 (View.ld x0 rX) (View.ld x1 rW) (View.ld x2 rD)⟩]

/-- The store covers the buffer. -/
theorem cover0_3 (p0 : Vec F S5000x4 .f32) (y : S5000x4.Idx) :
    ∃ pc ∈ ([⟨rO, p0⟩] : List (View.Piece (Elt F) S5000x4 .f32)), y ∈ pc.1.set :=
  View.cover_of_tiled [⟨rO, p0⟩] S5000x4.size (by rfl) y

/-! ## The body's triple -/

set_option maxHeartbeats 4000000 in
/-- The body on whole staging buffers, the inputs' at read contents and the result's at anything, runs to the
    continuation holding the inputs' as they were and the result's at `out0_3` of them. It loads the result's buffer
    before it stores it whole; what it loaded is not used. -/
theorem sound_kernel (c : Dev nD) (E : Set ℕ) (i : grid0.Coords)
    (arg1 : Memref sig .tc .vmem S5000x128 .f32) (harg1 : arg1.IsWhole) (arg2 : Memref sig .tc .vmem S128x4 .f32) (harg2 : arg2.IsWhole)
    (arg3 : Memref sig .tc .vmem S5000x1 .f32) (harg3 : arg3.IsWhole) (arg4 : Memref sig .tc .vmem S5000x4 .f32) (harg4 : arg4.IsWhole)
    (x0 : Vec F S5000x128 .f32) (x1 : Vec F S128x4 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_scaled_kernel i arg1 harg1 arg2 harg2 arg3 harg3 arg4 harg4) K := by
  simp only [cc0__dense_matmul_scaled_kernel_eq_skeleton]; unfold cc0__dense_matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the region -/

/-- On core `c`: the arrays as the region finds them; after the body at point `t` each input's buffer at its block
    and the result's at `out0_3` of the input blocks; the invariant the scoped rest, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- What every TensorCore buffer holds when @main ends: the later lines' fold from the region's exit contents (the
    staged arrays at what the write-backs leave, every other buffer at the region-entry contents). -/
abbrev final (c : Dev nD) (b : Ref sig .tc) : Buf (Elt F) ((c.tc : Thread nD τ).loc b) :=
  Pipeline.afterTail₀ cfgs (dats m) 0 (V0 m) [hostOps1, hostOps1_1, hostOps1_2, hostOps1_3, hostOps1_4] c b

set_option maxHeartbeats 8000000 in
set_option backward.isDefEq.respectTransparency.types false in
/-- From any memory with zero counters every weakly fair execution of @main terminates, and every final state has every
    staged array at what the proof data's write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := after_sub) (hfresh := after_fresh) (hkeep := after_keeps)
    (hmain := hmain m Variants.none) (hA := A_eq m) (hΦ := fun _ _ => rfl)

/-- The frame: every weakly fair execution terminates, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.FrameKernelIdeal.lean ====
/-
  The frame of the program: it runs to the end, nothing faults, and every argument array ends as it was launched;
  and, beyond the frame, what every buffer holds when it ends.

  @main is three stretches of host lines (the edge lists, the degrees and the per-node factor, its column), one
  region, and five stretches of host lines after it. The region is a grid of 100 points; at point t the body reads
  rows 5000·t … 5000·t + 4999 of the node features, the whole weight matrix and the same rows of the factor column,
  and stores the product of the factor with the matrix product into the same rows of its result, which it covers
  whole. Nothing is carried from one point to the next, so the region's invariant is the scoped rest, untouched.
  The lines after the region read the region's result and the arrays the earlier lines wrote; each writes one
  buffer of its own, none of them an array the region stages, and allocates nothing: that is what the run around
  a region asks of them.
-/
import proofs.«141974_j28269474742564_2_alg».proof.Proof.Gen.KernelIdeal.Launch
import proofs.«141974_j28269474742564_2_alg».proof.Proof.Gen.KernelIdeal.Skeleton
import proofs.«141974_j28269474742564_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host lines before the region, in order. -/
abbrev linesBefore : List (List (HloOp τ sig (Elt F))) := [hostOps0, hostOps0_1, hostOps0_2]
/-- The stretches of host lines after the region, in order. -/
abbrev linesAfter : List (List (HloOp τ sig (Elt F))) := [hostOps1, hostOps1_1, hostOps1_2, hostOps1_3, hostOps1_4]

/-- Core `c`'s buffer contents when the region is entered: the launch contents after the lines before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 8000000 in
/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- Every line after the region, as one list. -/
theorem mem_linesAfter {P : HloOp τ sig (Elt F) → Prop}
    (h1 : (hostOps1 : List (HloOp τ sig (Elt F))).Forall P) (h2 : (hostOps1_1 : List (HloOp τ sig (Elt F))).Forall P)
    (h3 : (hostOps1_2 : List (HloOp τ sig (Elt F))).Forall P) (h4 : (hostOps1_3 : List (HloOp τ sig (Elt F))).Forall P)
    (h5 : (hostOps1_4 : List (HloOp τ sig (Elt F))).Forall P) :
    ∀ ops ∈ ([hostOps1, hostOps1_1, hostOps1_2, hostOps1_3, hostOps1_4] : List (List (HloOp τ sig (Elt F)))), ∀ op ∈ ops, P op := by
  intro ops hops op hop
  simp only [List.mem_cons, List.mem_nil_iff, or_false] at hops
  rcases hops with rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop

/-- The lines after the region touch the region's arrays and the buffers that bypass it only: each line's buffers are
    unscoped TensorCore references, and with nothing prefetched every such reference is one or the other. -/
theorem after_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem after_fresh : ∀ ops ∈ ([hostOps1, hostOps1_1, hostOps1_2, hostOps1_3, hostOps1_4] : List (List (HloOp τ sig (Elt F)))), ∀ op ∈ ops, op.fresh = ∅ :=
  mem_linesAfter hostOps1_fresh hostOps1_1_fresh hostOps1_2_fresh hostOps1_3_fresh hostOps1_4_fresh

/-- A line that writes one buffer, and that buffer none of the four arrays the region stages (the node features, the
    weight matrix, the factor column, the region's result), writes no array of the region. -/
theorem keeps_of_ne {op : HloOp τ sig (Elt F)} {y : Ref sig .tc} (hw : op.writes = {Proc.devRef .tc y})
    (h0 : main_arg0 ≠ y) (h1 : main_arg2 ≠ y) (h2 : main_v15 ≠ y) (h3 : main_v16 ≠ y) :
    ∀ w, Proc.devRef .tc (Pipeline.arrRef spec0 w) ∉ op.writes := by
  intro w
  rw [hw, Finset.mem_singleton]
  fin_cases w
  · exact StableHlo.devRef_ne_of_ne h0
  · exact StableHlo.devRef_ne_of_ne h1
  · exact StableHlo.devRef_ne_of_ne h2
  · exact StableHlo.devRef_ne_of_ne h3

set_option maxHeartbeats 2000000 in
/-- And they write no array of the region: each writes only its own result buffer, which is none of the four. -/
theorem after_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  mem_linesAfter
    (by
      simp only [hostOps1, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_1, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_2, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_3, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))
    (by
      simp only [hostOps1_4, List.Forall, StableHlo.nullary_writes, StableHlo.unary_writes, StableHlo.binary_writes, StableHlo.ternary_writes, StableHlo.reshape_writes, Finset.mem_singleton]
      repeat' apply And.intro
      all_goals intro w; fin_cases w <;> exact StableHlo.devRef_ne_of_ne (by decide))

/-! ## The argument arrays before and after -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- No host line after the region writes `main_arg1`, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes `main_arg3`, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5`, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes `main_arg6`, and the region does not stage it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes `main_arg7`, and the region does not stage it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data whose array is the region-entry contents and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data whose array is the region-entry contents and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a run around the region -/

/-- For any proof data whose arrays are the region-entry contents, a run to the library's post — every staged array at
    what the write-backs leave, every other unscoped buffer as the later lines leave it — ends with every argument array
    as launched: a staged input is never written back, the others are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## What the body leaves in the result window's buffer -/

/-- The whole block of node features, of the weight matrix, of the factor column and of the result. -/
abbrev rX : Rect S5000x128 := Rect.unit (s := S5000x128) ![0, 0] S5000x128.size inb_S5000x128_S5000x128_0_0
abbrev rW : Rect S128x4 := Rect.unit (s := S128x4) ![0, 0] S128x4.size inb_S128x4_S128x4_0_0
abbrev rD : Rect S5000x1 := Rect.unit (s := S5000x1) ![0, 0] S5000x1.size inb_S5000x1_S5000x1_0_0
abbrev rO : Rect S5000x4 := Rect.unit (s := S5000x4) ![0, 0] S5000x4.size inb_S5000x4_S5000x4_0_0

/-- The result window's buffer after the body, from the three input blocks: its one store, of the whole block. -/
def out0_3 (x0 : Vec F S5000x128 .f32) (x1 : Vec F S128x4 .f32) (x2 : Vec F S5000x1 .f32) : Vec F S5000x4 .f32 :=
  View.canon [⟨rO, k0_pay1 (View.ld x0 rX) (View.ld x1 rW) (View.ld x2 rD)⟩]

/-- The store covers the buffer. -/
theorem cover0_3 (p0 : Vec F S5000x4 .f32) (y : S5000x4.Idx) :
    ∃ pc ∈ ([⟨rO, p0⟩] : List (View.Piece (Elt F) S5000x4 .f32)), y ∈ pc.1.set :=
  View.cover_of_tiled [⟨rO, p0⟩] S5000x4.size (by rfl) y

/-! ## The body's triple -/

set_option maxHeartbeats 4000000 in
/-- The body on whole staging buffers, the inputs' at read contents and the result's at anything, runs to the
    continuation holding the inputs' as they were and the result's at `out0_3` of them. It loads the result's buffer
    before it stores it whole; what it loaded is not used. -/
theorem sound_kernel (c : Dev nD) (E : Set ℕ) (i : grid0.Coords)
    (arg1 : Memref sig .tc .vmem S5000x128 .f32) (harg1 : arg1.IsWhole) (arg2 : Memref sig .tc .vmem S128x4 .f32) (harg2 : arg2.IsWhole)
    (arg3 : Memref sig .tc .vmem S5000x1 .f32) (harg3 : arg3.IsWhole) (arg4 : Memref sig .tc .vmem S5000x4 .f32) (harg4 : arg4.IsWhole)
    (x0 : Vec F S5000x128 .f32) (x1 : Vec F S128x4 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_matmul_scaled_kernel i arg1 harg1 arg2 harg2 arg3 harg3 arg4 harg4) K := by
  simp only [cc0__dense_matmul_scaled_kernel_eq_skeleton]; unfold cc0__dense_matmul_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the region -/

/-- On core `c`: the arrays as the region finds them; after the body at point `t` each input's buffer at its block
    and the result's at `out0_3` of the input blocks; the invariant the scoped rest, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- What every TensorCore buffer holds when @main ends: the later lines' fold from the region's exit contents (the
    staged arrays at what the write-backs leave, every other buffer at the region-entry contents). -/
abbrev final (c : Dev nD) (b : Ref sig .tc) : Buf (Elt F) ((c.tc : Thread nD τ).loc b) :=
  Pipeline.afterTail₀ cfgs (dats m) 0 (V0 m) [hostOps1, hostOps1_1, hostOps1_2, hostOps1_3, hostOps1_4] c b

set_option maxHeartbeats 8000000 in
set_option backward.isDefEq.respectTransparency.types false in
/-- From any memory with zero counters every weakly fair execution of @main terminates, and every final state has every
    staged array at what the proof data's write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := after_sub) (hfresh := after_fresh) (hkeep := after_keeps)
    (hmain := hmain m Variants.none) (hA := A_eq m) (hΦ := fun _ _ => rfl)

/-- The frame: every weakly fair execution terminates, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.KernelStages.lean ====
/-
  The host lines of the program around its region, read as functions of what they start from.

  Before the region the lines build, from the edge array, the two edge lists with one self loop per node appended
  (sources, destinations), the degree of every node (one unit scattered to each edge's destination), the per-node
  factor (the inverse square root of a positive degree, zero otherwise) and that factor laid out as a column.
  After the region they run three graph-convolution layers. A layer takes node rows already scaled by the factor,
  gathers the row of every edge's source (a negative source number wrapped around first), sums the gathered rows at
  every edge's destination, scales the sums by the factor column and adds the bias; between layers come the
  rectifier, the next weight matrix and the scaling by the factor column. The first layer's scaled rows are the
  region's result.
-/
import proofs.«141974_j28269474742564_2_alg».proof.Proof.Gen.KernelIdeal.Launch
import proofs.«141974_j28269474742564_2_alg».proof.Proof.LibReadThrough
import Idealize.ShloMosaic.Lib.StableHlo.Run

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-! ## The lines before the region -/

/-- Row `k` of the edge array as a vector, with the node numbers 0 … 499999 appended: one self loop per node. -/
def edgeList (k : Nat) (hk : S2x16000000.Slices ![k, 0] S1x16000000) (x1 : (⟨S2x16000000, .i32⟩ : BufTy).Contents (Elt F)) :
    (⟨S16500000, .i32⟩ : BufTy).Contents (Elt F) :=
  concatenate S16500000 0 [⟨S16000000, shapeCast S16000000 (extractStridedSlice S1x16000000 ![k, 0] x1 hk) shapeCasts_S1x16000000_S16000000⟩,
    ⟨S500000, iotaInDim S500000 32 0⟩] concatenates_S16000000_S500000_S16500000_d0

/-- The sources of the edges. -/
def sources (x1 : (⟨S2x16000000, .i32⟩ : BufTy).Contents (Elt F)) : (⟨S16500000, .i32⟩ : BufTy).Contents (Elt F) :=
  edgeList 0 slices_S2x16000000_S1x16000000_0_0 x1
/-- The destinations of the edges. -/
def dests (x1 : (⟨S2x16000000, .i32⟩ : BufTy).Contents (Elt F)) : (⟨S16500000, .i32⟩ : BufTy).Contents (Elt F) :=
  edgeList 1 slices_S2x16000000_S1x16000000_1_0 x1

/-- A vector of row numbers as a column. -/
def asColumn (v : (⟨S16500000, .i32⟩ : BufTy).Contents (Elt F)) : (⟨S16500000x1, .i32⟩ : BufTy).Contents (Elt F) :=
  broadcastInDim S16500000x1 ![0] bcast_S16500000_S16500000x1_0 v

/-- The degree of every node: one unit summed at each edge's destination. -/
def degree (x1 : (⟨S2x16000000, .i32⟩ : BufTy).Contents (Elt F)) : (⟨S500000, .f32⟩ : BufTy).Contents (Elt F) :=
  Host.scatterAdd scatter_S500000_S16500000x1_S16500000_n_0_0_1
    (broadcastInDim S500000 ![] bcast_S_S500000 (constant S_ .f32 0x00000000#32))
    (asColumn (dests x1))
    (broadcastInDim S16500000 ![] bcast_S_S16500000 (constant S_ .f32 0x3F800000#32))

/-- The per-node factor: the inverse square root of a positive degree, zero otherwise. -/
def factor (x1 : (⟨S2x16000000, .i32⟩ : BufTy).Contents (Elt F)) : (⟨S500000, .f32⟩ : BufTy).Contents (Elt F) :=
  select (cmpf .ogt (degree x1) (broadcastInDim S500000 ![] bcast_S_S500000 (constant S_ .f32 0x00000000#32)))
    (Host.rsqrt (degree x1))
    (broadcastInDim S500000 ![] bcast_S_S500000 (constant S_ .f32 0x00000000#32))

/-- The factor as a column. -/
def factorColumn (x1 : (⟨S2x16000000, .i32⟩ : BufTy).Contents (Elt F)) : (⟨S500000x1, .f32⟩ : BufTy).Contents (Elt F) :=
  broadcastInDim S500000x1 ![0] bcast_S500000_S500000x1_0 (factor x1)

/-! ## The lines after the region -/

/-- A vector of row numbers, a negative one wrapped around by the number of nodes, as a column: what a gather of node
    rows is indexed by. -/
def wrappedColumn (v : (⟨S16500000, .i32⟩ : BufTy).Contents (Elt F)) : (⟨S16500000x1, .i32⟩ : BufTy).Contents (Elt F) :=
  asColumn (select (cmpi .slt v (broadcastInDim S16500000 ![] bcast_S_S16500000 (constantI S_ 32 0#32)))
    (addi v (broadcastInDim S16500000 ![] bcast_S_S16500000 (constantI S_ 32 500000#32))) v)

/-- The factor column laid against four columns, and against two. -/
def factor4 (dcol : (⟨S500000x1, .f32⟩ : BufTy).Contents (Elt F)) : (⟨S500000x4, .f32⟩ : BufTy).Contents (Elt F) :=
  broadcastInDim S500000x4 ![0, 1] bcast_S500000x1_S500000x4_0_1 dcol
def factor2 (dcol : (⟨S500000x1, .f32⟩ : BufTy).Contents (Elt F)) : (⟨S500000x2, .f32⟩ : BufTy).Contents (Elt F) :=
  broadcastInDim S500000x2 ![0, 1] bcast_S500000x1_S500000x2_0_1 dcol

/-- The rows of the edges' sources summed at the edges' destinations and scaled by the factor, four columns wide. -/
def aggregate4 (srcv dstv : (⟨S16500000, .i32⟩ : BufTy).Contents (Elt F)) (dcol : (⟨S500000x1, .f32⟩ : BufTy).Contents (Elt F))
    (h : (⟨S500000x4, .f32⟩ : BufTy).Contents (Elt F)) : (⟨S500000x4, .f32⟩ : BufTy).Contents (Elt F) :=
  mulf (factor4 dcol)
    (Host.scatterAdd scatter_S500000x4_S16500000x1_S16500000x4_1_0_0_1
      (broadcastInDim S500000x4 ![] bcast_S_S500000x4 (constant S_ .f32 0x00000000#32))
      (asColumn dstv)
      (Host.gather gather_S500000x4_S16500000x1_S16500000x4_1_0_n_n_0_1_14 h (wrappedColumn srcv)))
/-- The same, two columns wide. -/
def aggregate2 (srcv dstv : (⟨S16500000, .i32⟩ : BufTy).Contents (Elt F)) (dcol : (⟨S500000x1, .f32⟩ : BufTy).Contents (Elt F))
    (h : (⟨S500000x2, .f32⟩ : BufTy).Contents (Elt F)) : (⟨S500000x2, .f32⟩ : BufTy).Contents (Elt F) :=
  mulf (factor2 dcol)
    (Host.scatterAdd scatter_S500000x2_S16500000x1_S16500000x2_1_0_0_1
      (broadcastInDim S500000x2 ![] bcast_S_S500000x2 (constant S_ .f32 0x00000000#32))
      (asColumn dstv)
      (Host.gather gather_S500000x2_S16500000x1_S16500000x2_1_0_n_n_0_1_12 h (wrappedColumn srcv)))

/-- A bias vector laid against every row. -/
def bias4 (b : (⟨S4, .f32⟩ : BufTy).Contents (Elt F)) : (⟨S500000x4, .f32⟩ : BufTy).Contents (Elt F) :=
  broadcastInDim S500000x4 ![0, 1] bcast_S1x4_S500000x4_0_1 (broadcastInDim S1x4 ![1] bcast_S4_S1x4_1 b)
def bias2 (b : (⟨S2, .f32⟩ : BufTy).Contents (Elt F)) : (⟨S500000x2, .f32⟩ : BufTy).Contents (Elt F) :=
  broadcastInDim S500000x2 ![0, 1] bcast_S1x2_S500000x2_0_1 (broadcastInDim S1x2 ![1] bcast_S2_S1x2_1 b)

/-- The rectifier. -/
def rectify (h : (⟨S500000x4, .f32⟩ : BufTy).Contents (Elt F)) : (⟨S500000x4, .f32⟩ : BufTy).Contents (Elt F) :=
  maximumf h (broadcastInDim S500000x4 ![] bcast_S_S500000x4 (constant S_ .f32 0x00000000#32))

/-- The three layers after the region, from the edge lists, the factor column, the region's result `h1` (the first
    layer's scaled rows) and the later layers' weights and the biases. -/
def layers (srcv dstv : (⟨S16500000, .i32⟩ : BufTy).Contents (Elt F)) (dcol : (⟨S500000x1, .f32⟩ : BufTy).Contents (Elt F))
    (h1 : (⟨S500000x4, .f32⟩ : BufTy).Contents (Elt F)) (b1 : (⟨S4, .f32⟩ : BufTy).Contents (Elt F))
    (w2 : (⟨S4x4, .f32⟩ : BufTy).Contents (Elt F)) (b2 : (⟨S4, .f32⟩ : BufTy).Contents (Elt F))
    (w3 : (⟨S4x2, .f32⟩ : BufTy).Contents (Elt F)) (b3 : (⟨S2, .f32⟩ : BufTy).Contents (Elt F)) :
    (⟨S500000x2, .f32⟩ : BufTy).Contents (Elt F) :=
  addf (aggregate2 srcv dstv dcol
      (mulf (factor2 dcol) (Host.dotGeneral dot_S500000x4_S4x2_S500000x2_1_0_0_1_n_n none
        (rectify (addf (aggregate4 srcv dstv dcol
          (mulf (factor4 dcol) (Host.dotGeneral dot_S500000x4_S4x4_S500000x4_1_0_0_1_n_n none
            (rectify (addf (aggregate4 srcv dstv dcol h1) (bias4 b1))) w2))) (bias4 b2))) w3)))
    (bias2 b3)

set_option maxRecDepth 16384 in
set_option maxHeartbeats 40000000 in
/-- The lines after the region, folded from any contents `W`, leave in the result's buffer the three layers of what
    `W` holds in the edge lists' buffers, the factor column's, the region result's and the weights' and biases'. -/
theorem after_lines (W : Valuation τ sig (Elt F)) :
    StableHlo.after (List.flatten [hostOps1, hostOps1_1, hostOps1_2, hostOps1_3, hostOps1_4]) W (Proc.devRef .tc main_v69)
      = layers (W (Proc.devRef .tc main_v5)) (W (Proc.devRef .tc main_v6)) (W (Proc.devRef .tc main_v15)) (W (Proc.devRef .tc main_v16))
          (W (Proc.devRef .tc main_arg3)) (W (Proc.devRef .tc main_arg4)) (W (Proc.devRef .tc main_arg5))
          (W (Proc.devRef .tc main_arg6)) (W (Proc.devRef .tc main_arg7)) := by
  simp only [hostOps1, hostOps1_1, hostOps1_2, hostOps1_3, hostOps1_4, List.flatten_cons, List.flatten_nil, List.append_nil,
    List.cons_append, List.nil_append]
  after_results_through
  rfl

set_option maxRecDepth 16384 in
set_option maxHeartbeats 40000000 in
/-- The lines before the region, folded from the launch contents `m`, leave the edge lists, and the factor column. -/
theorem before_lines_sources (V : Valuation τ sig (Elt F)) :
    StableHlo.after (List.flatten [hostOps0, hostOps0_1, hostOps0_2]) V (Proc.devRef .tc main_v5)
      = sources (V (Proc.devRef .tc main_arg1)) := by
  simp only [hostOps0, hostOps0_1, hostOps0_2, List.flatten_cons, List.flatten_nil, List.append_nil,
    List.cons_append, List.nil_append]
  after_results_through
  rfl

set_option maxRecDepth 16384 in
set_option maxHeartbeats 40000000 in
theorem before_lines_dests (V : Valuation τ sig (Elt F)) :
    StableHlo.after (List.flatten [hostOps0, hostOps0_1, hostOps0_2]) V (Proc.devRef .tc main_v6)
      = dests (V (Proc.devRef .tc main_arg1)) := by
  simp only [hostOps0, hostOps0_1, hostOps0_2, List.flatten_cons, List.flatten_nil, List.append_nil,
    List.cons_append, List.nil_append]
  after_results_through
  rfl

set_option maxRecDepth 16384 in
set_option maxHeartbeats 40000000 in
theorem before_lines_factorColumn (V : Valuation τ sig (Elt F)) :
    StableHlo.after (List.flatten [hostOps0, hostOps0_1, hostOps0_2]) V (Proc.devRef .tc main_v15)
      = factorColumn (V (Proc.devRef .tc main_arg1)) := by
  simp only [hostOps0, hostOps0_1, hostOps0_2, List.flatten_cons, List.flatten_nil, List.append_nil,
    List.cons_append, List.nil_append]
  after_results_through
  rfl

end Cert.KernelIdeal.Stages

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelPayload.lean ====
/-
  The kernel body's one stored value, read at an element, on the extended reals.

  The body stores the product of a per-row factor, laid along the four columns, with the rows of one matrix times a
  weight matrix. The operands of the matrix product are narrowed on the way in; on the extended reals a change of
  format is the identity. So at `(p, q)` the stored value is
    `v5 (p, 0) · Σ_{j < 128} v0 (p, j) · v2 (j, q)`.
-/
import proofs.«141974_j28269474742564_2_alg».proof.Proof.Gen.KernelIdeal.Skeleton
import proofs.«141974_j28269474742564_2_alg».proof.Proof.LibMatmul
import proofs.«141974_j28269474742564_2_alg».proof.Proof.LibColumns
import Idealize.ShloMosaic.Lib.ValueIdx
import Idealize.ShloMosaic.Lib.Pipeline.Value
import Idealize.ShloMosaic.PureOps.Ideal.Laws

open scoped BigOperators

noncomputable section

namespace Cert.KernelIdeal.Payload

open Cert.KernelIdeal Cert.KernelIdeal.Gen Idealize.ShloMosaic Idealize.ShloMosaic.ValueIdx

/-- The per-row factor laid along the columns reads, at `(p, q)`, the factor of row `p`: the cast of a column to its
    own shape is the identity, and the broadcast along the columns repeats the column's entry. -/
theorem factor_apply (v5 : FVec Ideal S5000x1 .f32) (p : Fin 5000) (q : Fin 4) :
    broadcastTo S5000x4 (shapeCast S5000x1 v5 shapeCasts_S5000x1_S5000x1) broadcasts_S5000x1_S5000x4 (ix2 p q)
      = v5 (ix2 p (0 : Fin 1)) :=
  (broadcastTo_a1_ab_apply _ broadcasts_S5000x1_S5000x4 p q).trans
    (congrFun (shapeCast_self v5 shapeCasts_S5000x1_S5000x1) (ix2 p (0 : Fin 1)))

/-- The matrix product of the narrowed operands into the zero accumulator is, at `(p, q)`, the sum over the shared
    position `j` of `v0 (p, j) · v2 (j, q)`: narrowing is the identity on the extended reals. -/
theorem product_apply (v0 : FVec Ideal S5000x128 .f32) (v2 : FVec Ideal S128x4 .f32) (p : Fin 5000) (q : Fin 4) :
    matmul dot_S5000x128_S128x4_S5000x4_1_0_0_1_n_n none (truncf .bf16 v0 bitsLt_bf16_f32) (truncf .bf16 v2 bitsLt_bf16_f32)
        (constant S5000x4 .f32 0x00000000#32) (ix2 p q)
      = ∑ j : Fin 128, v0 (ix2 p j) * v2 (ix2 j q) :=
  matmul_zero_ix2 dot_S5000x128_S128x4_S5000x4_1_0_0_1_n_n rfl rfl rfl rfl rfl rfl none
    (truncf .bf16 v0 bitsLt_bf16_f32) (truncf .bf16 v2 bitsLt_bf16_f32) p q

/-- The stored value at `(p, q)`: the factor of row `p` times the `(p, q)` entry of the matrix product. -/
theorem pay_apply (v0 : Vec Ideal S5000x128 .f32) (v2 : Vec Ideal S128x4 .f32) (v5 : Vec Ideal S5000x1 .f32)
    (p : Fin 5000) (q : Fin 4) :
    k0_pay1 (F := Ideal) v0 v2 v5 (ix2 p q) = v5 (ix2 p (0 : Fin 1)) * ∑ j : Fin 128, v0 (ix2 p j) * v2 (ix2 j q) := by
  unfold k0_pay1
  refine (mulf_apply _ _ _).trans ?_
  exact congrArg₂ (· * ·) (factor_apply v5 p q) (product_apply v0 v2 p q)

end Cert.KernelIdeal.Payload
-- ==== Proof.KernelBlocks.lean ====
/-
  From blocks to the array: what the region's result array holds when the region ends.

  The region is a grid of 100 points. At point `t` the body is given rows `5000·t … 5000·t + 4999` of the node features
  (blocks of 5000 × 128), the whole weight matrix (128 × 4, the same block at every point), the same rows of the factor
  column (blocks of 5000 × 1), and it writes back the same rows of the result (blocks of 5000 × 4). The body's one stored
  value at block element `(y0, y1)` is the factor of its row times the row's product with column `y1` of the weight
  matrix. An element of a block sits in its array, on each axis, at block index × block size + its own coordinate, so
  what point `t` writes back is block `t` of ONE function `G` of the three arrays as the region finds them:
    `G (r, q) = factor (r, 0) · Σ_{j < 128} features (r, j) · weights (j, q)`.
  The 100 blocks cover the result array (row `r` lies in block `r / 5000`), so the array ends holding `G`.
-/
import proofs.«141974_j28269474742564_2_alg».proof.Proof.FrameKernelIdeal
import proofs.«141974_j28269474742564_2_alg».proof.Proof.KernelPayload
import Idealize.ShloMosaic.Lib.Pipeline.Value
import Idealize.ShloMosaic.Lib.ValueIdx

open scoped BigOperators

noncomputable section

namespace Cert.KernelIdeal.Blocks

open Cert.KernelIdeal Cert.KernelIdeal.Gen Cert.KernelIdeal.Frame
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The function the result array ends holding -/

/-- What the result array ends holding: the factor of a row times the row's product with the weight matrix. -/
def G (a0 : S500000x128.Idx → EReal) (a2 : S128x4.Idx → EReal) (a15 : S500000x1.Idx → EReal) : S500000x4.Idx → EReal := fun i =>
  a15 (ix2 (⟨(i 0).val, (i 0).isLt⟩ : Fin 500000) (0 : Fin 1)) * ∑ j : Fin 128, a0 (ix2 (⟨(i 0).val, (i 0).isLt⟩ : Fin 500000) j) * a2 (ix2 j (⟨(i 1).val, (i 1).isLt⟩ : Fin 4))

/-- At `(p, q)`: the factor of row `p` times the `(p, q)` entry of the product. -/
theorem G_apply (a0 : S500000x128.Idx → EReal) (a2 : S128x4.Idx → EReal) (a15 : S500000x1.Idx → EReal) (p : Fin 500000) (q : Fin 4) :
    G a0 a2 a15 (ix2 p q) = a15 (ix2 p (0 : Fin 1)) * ∑ j : Fin 128, a0 (ix2 p j) * a2 (ix2 j q) := rfl

/-! ## Where each window's block sits at a point -/

/-- The zero offsets of a whole block. -/
theorem zero_offsets : (![0, 0] : Fin 2 → Nat) = fun _ => 0 := funext fun a => by fin_cases a <;> rfl

/-- The block index of every window at point `t`: the three row windows sit at block row `t`, column block `0`; the
    weight matrix's window stays at `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Element `(y0, k)` of the node features' block at point `t` is the array's at row `5000·t + y0`, column `k`:
    a block's element sits at block index × block size + its own coordinate. -/
theorem read_features (A : S500000x128.Idx → EReal) (t : Fin cfg0.N) (y0 : Fin 5000) (k : Fin 128) (r : Fin 500000)
    (hr : r.val = 5000 * t.val + y0.val) :
    (((cfg0.win 0).blk t).view.read (Elt Ideal) A : Vec Ideal S5000x128 .f32) (ix2 y0 k) = A (ix2 r k) := by
  obtain ⟨e0, e1, -⟩ := block_index t
  show A (((cfg0.win 0).blk t).view.emb (ix2 y0 k)) = A (ix2 r k)
  refine congrArg A ?_
  funext a
  apply Fin.ext
  match a with
  | ⟨0, _⟩ => show win0_0.index t (0 : Fin 2) * 5000 + 1 * y0.val = r.val; omega
  | ⟨1, _⟩ => show win0_0.index t (1 : Fin 2) * 128 + 1 * k.val = k.val; omega

/-- The weight matrix's block at every point is the whole matrix. -/
theorem read_weights (A : S128x4.Idx → EReal) (t : Fin cfg0.N) (k : Fin 128) (y1 : Fin 4) :
    (((cfg0.win 1).blk t).view.read (Elt Ideal) A : Vec Ideal S128x4 .f32) (ix2 k y1) = A (ix2 k y1) := by
  obtain ⟨-, -, e2, e3, -⟩ := block_index t
  show A (((cfg0.win 1).blk t).view.emb (ix2 k y1)) = A (ix2 k y1)
  refine congrArg A ?_
  funext a
  apply Fin.ext
  match a with
  | ⟨0, _⟩ => show win0_1.index t (0 : Fin 2) * 128 + 1 * k.val = k.val; omega
  | ⟨1, _⟩ => show win0_1.index t (1 : Fin 2) * 4 + 1 * y1.val = y1.val; omega

/-- Element `(y0, u)` of the factor column's block at point `t` is the column's at row `5000·t + y0`. -/
theorem read_factor (A : S500000x1.Idx → EReal) (t : Fin cfg0.N) (y0 : Fin 5000) (u : Fin 1) (r : Fin 500000)
    (hr : r.val = 5000 * t.val + y0.val) :
    (((cfg0.win 2).blk t).view.read (Elt Ideal) A : Vec Ideal S5000x1 .f32) (ix2 y0 u) = A (ix2 r u) := by
  obtain ⟨-, -, -, -, e4, e5, -⟩ := block_index t
  show A (((cfg0.win 2).blk t).view.emb (ix2 y0 u)) = A (ix2 r u)
  refine congrArg A ?_
  funext a
  apply Fin.ext
  match a with
  | ⟨0, _⟩ => show win0_2.index t (0 : Fin 2) * 5000 + 1 * y0.val = r.val; omega
  | ⟨1, _⟩ => show win0_2.index t (1 : Fin 2) * 1 + 1 * u.val = u.val; omega

/-- Element `(y0, y1)` of the result's block at point `t` sits in the array at row `5000·t + y0`, column `y1`. -/
theorem result_block_emb (t : Fin cfg0.N) (y0 : Fin 5000) (y1 : Fin 4) (r : Fin 500000)
    (hr : r.val = 5000 * t.val + y0.val) :
    (((cfg0.win 3).blk t).view.emb (ix2 y0 y1) : S500000x4.Idx) = ix2 r y1 := by
  obtain ⟨-, -, -, -, -, -, e6, e7⟩ := block_index t
  funext a
  apply Fin.ext
  match a with
  | ⟨0, _⟩ => show win0_3.index t (0 : Fin 2) * 5000 + 1 * y0.val = r.val; omega
  | ⟨1, _⟩ => show win0_3.index t (1 : Fin 2) * 4 + 1 * y1.val = y1.val; omega

/-- The three input blocks at point `t`, as rows of the arrays the region finds. -/
theorem features_block (c : Dev nD) (t : Fin cfg0.N) (y0 : Fin 5000) (k : Fin 128) (r : Fin 500000)
    (hr : r.val = 5000 * t.val + y0.val) :
    (iblk m c 0 t : Vec Ideal S5000x128 .f32) (ix2 y0 k) = (V m c main_arg0 : S500000x128.Idx → EReal) (ix2 r k) :=
  read_features (V m c main_arg0) t y0 k r hr

theorem weights_block (c : Dev nD) (t : Fin cfg0.N) (k : Fin 128) (y1 : Fin 4) :
    (iblk m c 1 t : Vec Ideal S128x4 .f32) (ix2 k y1) = (V m c main_arg2 : S128x4.Idx → EReal) (ix2 k y1) :=
  read_weights (V m c main_arg2) t k y1

theorem factor_block (c : Dev nD) (t : Fin cfg0.N) (y0 : Fin 5000) (u : Fin 1) (r : Fin 500000)
    (hr : r.val = 5000 * t.val + y0.val) :
    (iblk m c 2 t : Vec Ideal S5000x1 .f32) (ix2 y0 u) = (V m c main_v15 : S500000x1.Idx → EReal) (ix2 r u) :=
  read_factor (V m c main_v15) t y0 u r hr

/-! ## What a point writes back -/

/-- The payload at a block element, over any three blocks that read row `r` of the arrays there. -/
theorem pay_block (x0 : Vec Ideal S5000x128 .f32) (x1 : Vec Ideal S128x4 .f32) (x2 : Vec Ideal S5000x1 .f32)
    (a0 : S500000x128.Idx → EReal) (a2 : S128x4.Idx → EReal) (a15 : S500000x1.Idx → EReal)
    (r : Fin 500000) (y0 : Fin 5000) (y1 : Fin 4)
    (h0 : ∀ k : Fin 128, x0 (ix2 y0 k) = a0 (ix2 r k))
    (h1 : ∀ k : Fin 128, x1 (ix2 k y1) = a2 (ix2 k y1))
    (h2 : x2 (ix2 y0 (0 : Fin 1)) = a15 (ix2 r (0 : Fin 1))) :
    k0_pay1 (F := Ideal) x0 x1 x2 (ix2 y0 y1) = a15 (ix2 r (0 : Fin 1)) * ∑ j : Fin 128, a0 (ix2 r j) * a2 (ix2 j y1) := by
  rw [Payload.pay_apply, h2]
  refine congrArg _ (Finset.sum_congr rfl fun j _ => ?_)
  rw [h0, h1]

/-- The body's result for the result window, over any three blocks that read the rows `5000·t …` of three arrays,
    is block `t` of `G` of those arrays. -/
theorem flushed_blocks (x0 : Vec Ideal S5000x128 .f32) (x1 : Vec Ideal S128x4 .f32) (x2 : Vec Ideal S5000x1 .f32)
    (a0 : S500000x128.Idx → EReal) (a2 : S128x4.Idx → EReal) (a15 : S500000x1.Idx → EReal) (t : Fin cfg0.N)
    (h0 : ∀ (y0 : Fin 5000) (k : Fin 128) (r : Fin 500000), r.val = 5000 * t.val + y0.val → x0 (ix2 y0 k) = a0 (ix2 r k))
    (h1 : ∀ (k : Fin 128) (y1 : Fin 4), x1 (ix2 k y1) = a2 (ix2 k y1))
    (h2 : ∀ (y0 : Fin 5000) (r : Fin 500000), r.val = 5000 * t.val + y0.val →
      x2 (ix2 y0 (0 : Fin 1)) = a15 (ix2 r (0 : Fin 1))) :
    (cfg0.win 3).cut (grid0.coords t) (out0_3 x0 x1 x2) = ((cfg0.win 3).blk t).view.read (Elt Ideal) (G a0 a2 a15) := by
  have hN : grid0.N = 100 := N_0
  unfold out0_3
  rw [View.canon_unit_zero zero_offsets]
  simp only [View.ld_unit_zero (S := S5000x128) zero_offsets, View.ld_unit_zero (S := S128x4) zero_offsets,
    View.ld_unit_zero (S := S5000x1) zero_offsets]
  funext j
  obtain ⟨y0, y1, rfl⟩ : ∃ (y0 : Fin 5000) (y1 : Fin 4), j = ix2 y0 y1 := ⟨j 0, j 1, eq_ix2 j⟩
  have ht : t.val < 100 := hN ▸ t.isLt
  have hy0 : y0.val < 5000 := y0.isLt
  obtain ⟨r, hr⟩ : ∃ r : Fin 500000, r.val = 5000 * t.val + y0.val := ⟨⟨5000 * t.val + y0.val, by omega⟩, rfl⟩
  show k0_pay1 (F := Ideal) x0 x1 x2 (ix2 y0 y1) = G a0 a2 a15 (((cfg0.win 3).blk t).view.emb (ix2 y0 y1))
  rw [result_block_emb t y0 y1 r hr, G_apply]
  exact pay_block x0 x1 x2 a0 a2 a15 r y0 y1 (fun k => h0 y0 k r hr) (fun k => h1 k y1) (h2 y0 r hr)

/-- What point `t` writes back is block `t` of `G` of the arrays as the region finds them. -/
theorem flushed_eq (c : Dev nD) (t : Fin cfg0.N) :
    (dats m 0 c).flushed 3 t
      = ((cfg0.win 3).blk t).view.read (Elt Ideal) (G (V m c main_arg0) (V m c main_arg2) (V m c main_v15)) := by
  show (cfg0.win 3).cut (grid0.coords t) ((dats m 0 c).after 3 t) = _
  rw [after0_3]
  exact flushed_blocks (iblk m c 0 t) (iblk m c 1 t) (iblk m c 2 t) (V m c main_arg0) (V m c main_arg2) (V m c main_v15) t
    (fun y0 k r hr => features_block m c t y0 k r hr) (fun k y1 => weights_block m c t k y1)
    (fun y0 r hr => factor_block m c t y0 0 r hr)

/-! ## The blocks cover the array -/

/-- An index of the array is in point `t`'s block iff each coordinate is in the block's range on its axis. -/
theorem mem_blk (t : Fin cfg0.N) (i : S500000x4.Idx) :
    i ∈ ((cfg0.win 3).blk t).view.set
      ↔ ∀ a : Fin 2, win0_3.index t a * S5000x4.size a ≤ (i a).val ∧ (i a).val < win0_3.index t a * S5000x4.size a + S5000x4.size a := by
  show i ∈ ((View.whole main_v16).slice (win0_3.rect t)).set ↔ _
  rw [View.set_slice_whole, Rect.mem_set_unit]
  exact Iff.rfl

/-- Every index of the array is in the block of the point its row falls in: row `r` is in block `r / 5000`. -/
theorem covered (i : S500000x4.Idx) :
    ∃ t : Fin cfg0.N, (cfg0.win 3).flush t = true ∧ i ∈ ((cfg0.win 3).blk t).view.set := by
  have hN : grid0.N = 100 := N_0
  have hi0 : (i 0).val < 500000 := (i 0).isLt
  have hi1 : (i 1).val < 4 := (i 1).isLt
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, e6, e7⟩ := block_index t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 4 ≤ (i 1).val ∧ (i 1).val < win0_3.index t (1 : Fin 2) * 4 + 4
    omega

/-! ## The array after the region -/

/-- The result array ends holding `G` of the arrays the region finds. -/
theorem region_result (c : Dev nD) :
    (dats m 0 c).arrAt 3 cfg0.N = G (V m c main_arg0) (V m c main_arg2) (V m c main_v15) :=
  (dats m 0 c).arrAt_eq_of_cover 3 (G (V m c main_arg0) (V m c main_arg2) (V m c main_v15))
    (fun t _ => flushed_eq m c t) covered

/-- At `(p, q)`: the factor of row `p` times the sum over `j` of features `(p, j)` times weights `(j, q)`. -/
theorem region_result_apply (c : Dev nD) (p : Fin 500000) (q : Fin 4) :
    ((dats m 0 c).arrAt 3 cfg0.N : S500000x4.Idx → EReal) (ix2 p q)
      = HMul.hMul (α := EReal) (β := EReal) (V m c main_v15 (ix2 p (0 : Fin 1)))
          (∑ j : Fin 128, HMul.hMul (α := EReal) (β := EReal) (V m c main_arg0 (ix2 p j)) (V m c main_arg2 (ix2 j q))) :=
  (congrFun (region_result m c) (ix2 p q)).trans (G_apply (V m c main_arg0) (V m c main_arg2) (V m c main_v15) p q)

end Cert.KernelIdeal.Blocks

end
-- ==== Proof.KernelValue.lean ====
/-
  What the program's result buffer holds when it ends, as one function of the argument arrays.

  The run around the region leaves every buffer at the later lines' fold from the region's exit contents. Read at
  the result's buffer, that fold is the three layers over what the exit contents hold in nine buffers: the two edge
  lists and the factor column, which the earlier lines wrote from the edge array and nothing touched since (the
  column is an input of the region, never written back); the region's result, which ends as the factor of a row
  times the row's product with the first weight matrix; and five argument arrays, as launched.
-/
import proofs.«141974_j28269474742564_2_alg».proof.Proof.FrameKernelIdeal
import proofs.«141974_j28269474742564_2_alg».proof.Proof.KernelStages
import proofs.«141974_j28269474742564_2_alg».proof.Proof.KernelBlocks

set_option maxRecDepth 16384

noncomputable section

namespace Cert.KernelIdeal.Result

open Cert.KernelIdeal Cert.KernelIdeal.Gen Cert.KernelIdeal.Frame
open Idealize.ShloMosaic Idealize.ShloMosaic.TcCoe Idealize.SL.Sem
open Idealize.ShloMosaic.Pipeline (Dat)

variable (m : (ℓ : Loc nD τ sig) → Buf (Elt Ideal) ℓ)

/-- The kernel's result as a function of the argument arrays: the three layers over the edge lists and the factor
    column of the edge array, with the first layer's scaled rows the factor times the rows' product with the first
    weight matrix. -/
def kernelResult (x0 : (⟨S500000x128, .f32⟩ : BufTy).Contents (Elt Ideal)) (x1 : (⟨S2x16000000, .i32⟩ : BufTy).Contents (Elt Ideal))
    (x2 : (⟨S128x4, .f32⟩ : BufTy).Contents (Elt Ideal)) (x3 : (⟨S4, .f32⟩ : BufTy).Contents (Elt Ideal))
    (x4 : (⟨S4x4, .f32⟩ : BufTy).Contents (Elt Ideal)) (x5 : (⟨S4, .f32⟩ : BufTy).Contents (Elt Ideal))
    (x6 : (⟨S4x2, .f32⟩ : BufTy).Contents (Elt Ideal)) (x7 : (⟨S2, .f32⟩ : BufTy).Contents (Elt Ideal)) :
    (⟨S500000x2, .f32⟩ : BufTy).Contents (Elt Ideal) :=
  Stages.layers (Stages.sources x1) (Stages.dests x1) (Stages.factorColumn x1)
    (Blocks.G x0 x2 (Stages.factorColumn x1)) x3 x4 x5 x6 x7

/-- The region finds the edge lists and the factor column as the earlier lines leave them. -/
theorem entry_sources (c : Dev nD) : V m c main_v5 = Stages.sources (m ((c.tc : Thread nD τ).loc main_arg1)) :=
  Stages.before_lines_sources (fun b => m (c, b))
theorem entry_dests (c : Dev nD) : V m c main_v6 = Stages.dests (m ((c.tc : Thread nD τ).loc main_arg1)) :=
  Stages.before_lines_dests (fun b => m (c, b))
theorem entry_factorColumn (c : Dev nD) : V m c main_v15 = Stages.factorColumn (m ((c.tc : Thread nD τ).loc main_arg1)) :=
  Stages.before_lines_factorColumn (fun b => m (c, b))

/-- The contents the later lines start from. -/
abbrev exitContents (c : Dev nD) : Valuation τ sig (Elt Ideal) :=
  Pipeline.withArrays spec0 c (V0 m c) fun w => (dats m 0 c).arrAt w cfg0.N

theorem exit_of_ne (c : Dev nD) (b : Ref sig .tc) (hb : ∀ w, Pipeline.arrRef spec0 w ≠ b) :
    exitContents m c (Proc.devRef .tc b) = V m c b :=
  Pipeline.withArrays_of_ne _ c (V0 m c) _ b hb

/-- The result's buffer at the end. -/
theorem final_result (c : Dev nD) :
    final m c main_v69 = kernelResult (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  show StableHlo.after (List.flatten [hostOps1, hostOps1_1, hostOps1_2, hostOps1_3, hostOps1_4]) (exitContents m c) (Proc.devRef .tc main_v69) = _
  rw [Stages.after_lines]
  have h5 : exitContents m c (Proc.devRef .tc main_v5) = Stages.sources (m ((c.tc : Thread nD τ).loc main_arg1)) :=
    (exit_of_ne m c main_v5 (by decide)).trans (entry_sources m c)
  have h6 : exitContents m c (Proc.devRef .tc main_v6) = Stages.dests (m ((c.tc : Thread nD τ).loc main_arg1)) :=
    (exit_of_ne m c main_v6 (by decide)).trans (entry_dests m c)
  have h15 : exitContents m c (Proc.devRef .tc main_v15) = Stages.factorColumn (m ((c.tc : Thread nD τ).loc main_arg1)) :=
    (Pipeline.withArrays_arr spec0 launch0.win.arr_inj c _ _ 2).trans
      (((dats m 0 c).arrAt_in 2 rfl _).trans ((A_eq m c 2).trans (entry_factorColumn m c)))
  have h16 : exitContents m c (Proc.devRef .tc main_v16)
      = Blocks.G (m ((c.tc : Thread nD τ).loc main_arg0)) (m ((c.tc : Thread nD τ).loc main_arg2)) (Stages.factorColumn (m ((c.tc : Thread nD τ).loc main_arg1))) :=
    (Pipeline.withArrays_arr spec0 launch0.win.arr_inj c _ _ 3).trans
      ((Blocks.region_result m c).trans (by rw [V_main_arg0, V_main_arg2, entry_factorColumn]))
  have h3 : exitContents m c (Proc.devRef .tc main_arg3) = (m ((c.tc : Thread nD τ).loc main_arg3)) :=
    (exit_of_ne m c main_arg3 (by decide)).trans (V_main_arg3 m c)
  have h4 : exitContents m c (Proc.devRef .tc main_arg4) = (m ((c.tc : Thread nD τ).loc main_arg4)) :=
    (exit_of_ne m c main_arg4 (by decide)).trans (V_main_arg4 m c)
  have h5' : exitContents m c (Proc.devRef .tc main_arg5) = (m ((c.tc : Thread nD τ).loc main_arg5)) :=
    (exit_of_ne m c main_arg5 (by decide)).trans (V_main_arg5 m c)
  have h6' : exitContents m c (Proc.devRef .tc main_arg6) = (m ((c.tc : Thread nD τ).loc main_arg6)) :=
    (exit_of_ne m c main_arg6 (by decide)).trans (V_main_arg6 m c)
  have h7 : exitContents m c (Proc.devRef .tc main_arg7) = (m ((c.tc : Thread nD τ).loc main_arg7)) :=
    (exit_of_ne m c main_arg7 (by decide)).trans (V_main_arg7 m c)
  rw [h5, h6, h15, h16, h3, h4, h5', h6', h7]
  rfl

/-- The run, read: every weakly fair execution terminates with the result's buffer at `kernelResult` of the argument
    arrays and the argument arrays as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v69) = kernelResult (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v69 (Pipeline.mem_restRefs_of main_v69 (by decide) (by decide))).trans (final_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«141974_j28269474742564_2_alg».proof.Proof.LibRowIndex
import proofs.«141974_j28269474742564_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibNormalizedAggregate.lean ====
/-
  A normalised graph-convolution aggregate in two arrangements, on the extended reals.

  Every node `n` carries a factor `dinv n`, a NONNEGATIVE REAL. Every edge row `e` carries a destination row number
  `dst e` and a source row `s e`. One arrangement sums first and scales after:
    `dinv n · Σ_{e : dst e = n} (dinv (s e) · y (s e, c))`;
  the other scales every term before summing:
    `Σ_{e : dst e = n} (dinv (s e) · dinv (d' e)) · y (s e, c)`,
  where `d' e` is a gather's reading (wrapped, then clamped into `[0, N − 1]`) of the same destination number, which
  for an update that lands on `n` IS `n`. The two agree: a nonnegative real factor distributes over any finite sum of
  extended reals (infinite terms included), and multiplication of extended reals is commutative and associative.

  * `vec_operandIdx_ix1`, `gather_vec_apply`: the gather of a vector `x : [N]` at a column of positions reads, at `e`,
    the entry `x (clamp idx[e])`.
  * `aggregate_eq`: the two arrangements, written with the host's row gather and accumulating row scatter, agree at
    every element `(n, c)`.
  * `wrapped_clamped_of_lands`: a 32-bit row number that reads signed as `n < N` is left alone by wrapping (adding `N`
    to a negative number) and clamping.
-/
import proofs.«141974_j28269474742564_2_alg».proof.Proof.LibRowScatterSum
import proofs.«141974_j28269474742564_2_alg».proof.Proof.LibERealSum

noncomputable section

namespace Idealize.ShloMosaic.NormalizedAggregate

open Idealize.ShloMosaic Idealize.ShloMosaic.ValueIdx Idealize.ShloMosaic.RowIndex

variable {N D E : Nat}

/-! ## A vector gathered at a column of positions, read at coordinates -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 hN wf idx e)

/-! ## The two arrangements agree -/

/-- Scaling the segment sum of `dinv (s e) · y (s e, c)` by `dinv n` is the segment sum of
    `(dinv (s e) · dinv (d' e)) · y (s e, c)`, when `dinv` is a nonnegative real everywhere and `d' e = n` for every
    row `e` whose destination number is `n`. -/
theorem aggregate_eq (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (dinv : FVec Ideal ⟨1, ![N]⟩ .f32) (hdinv : ∀ i, ∃ r : ℝ, 0 ≤ r ∧ dinv i = (r : EReal))
    (dstcol srccol dstcol' : IVec ⟨2, ![E, 1]⟩ 32)
    (hdst' : ∀ (e : Fin E) (n : Nat), n < N → (dstcol (atRow e)).toInt = (n : Int) →
      min (dstcol' (atRow e)).toInt.toNat (N - 1) = n)
    (z z' : FVec Ideal ⟨2, ![N, D]⟩ .f32) (hz : ∀ i, z i = 0) (hz' : ∀ i, z' i = 0)
    (dcol : FVec Ideal ⟨2, ![N, D]⟩ .f32) (hdcol : ∀ (n : Fin N) (c : Fin D), dcol (ix2 n c) = dinv (ix1 n))
    (normb : FVec Ideal ⟨2, ![E, D]⟩ .f32)
    (hnormb : ∀ (e : Fin E) (c : Fin D), normb (ix2 e c)
      = Host.gather (vecDims N E wfV) dinv srccol (ix1 e) * Host.gather (vecDims N E wfV) dinv dstcol' (ix1 e))
    (y : FVec Ideal ⟨2, ![N, D]⟩ .f32) (n : Fin N) (c : Fin D) :
    mulf dcol (Host.scatterAdd (rowScatter N D E wfS) z dstcol
        (Host.gather (rowsDims N D E wfG) (mulf dcol y) srccol)) (ix2 n c)
      = Host.scatterAdd (rowScatter N D E wfS) z' dstcol
        (mulf normb (Host.gather (rowsDims N D E wfG) y srccol)) (ix2 n c) := by
  rw [mulf_apply, scatterAdd_rows_apply, scatterAdd_rows_apply, hz, hz', hdcol, mul_comm]
  -- the row a gather reads for edge row `e`
  have hterm : ∀ e : Fin E,
      Host.gather (rowsDims N D E wfG) (mulf dcol y) srccol (ix2 e c)
        = dinv (ix1 (⟨min (srccol (atRow e)).toInt.toNat (N - 1),
              Nat.lt_of_le_of_lt (Nat.min_le_right _ _) (by omega)⟩ : Fin N))
          * y (ix2 (⟨min (srccol (atRow e)).toInt.toNat (N - 1),
              Nat.lt_of_le_of_lt (Nat.min_le_right _ _) (by omega)⟩ : Fin N) c) := by
    intro e
    rw [gather_rows_apply N D E hN wfG, mulf_apply, hdcol]
  have hterm' : ∀ e : Fin E,
      mulf normb (Host.gather (rowsDims N D E wfG) y srccol) (ix2 e c)
        = (dinv (ix1 (⟨min (srccol (atRow e)).toInt.toNat (N - 1),
              Nat.lt_of_le_of_lt (Nat.min_le_right _ _) (by omega)⟩ : Fin N))
            * dinv (ix1 (⟨min (dstcol' (atRow e)).toInt.toNat (N - 1),
              Nat.lt_of_le_of_lt (Nat.min_le_right _ _) (by omega)⟩ : Fin N)))
          * y (ix2 (⟨min (srccol (atRow e)).toInt.toNat (N - 1),
              Nat.lt_of_le_of_lt (Nat.min_le_right _ _) (by omega)⟩ : Fin N) c) := by
    intro e
    rw [mulf_apply, hnormb, gather_rows_apply N D E hN wfG, gather_vec_apply hN wfV, gather_vec_apply hN wfV]
  rw [Finset.sum_congr rfl fun e _ => hterm e, Finset.sum_congr rfl fun e _ => hterm' e]
  rw [ERealSum.scaled_sum_eq (rowsTo E dstcol n.val) _ _
    (fun e => dinv (ix1 (⟨min (dstcol' (atRow e)).toInt.toNat (N - 1),
      Nat.lt_of_le_of_lt (Nat.min_le_right _ _) (by omega)⟩ : Fin N))) (hdinv (ix1 n))
    (fun e he => by
      have h := (Finset.mem_filter.mp he).2
      exact congrArg (fun k : Fin N => dinv (ix1 k)) (Fin.ext (hdst' e n.val n.isLt h)))]
  refine congrArg (0 + ·) (Finset.sum_congr rfl fun e _ => ?_)
  rw [mul_comm (y _) (dinv _), mul_assoc]

/-! ## A 32-bit row number already in range -/

/-- A 32-bit row number that reads signed as `n < N` is left alone by wrapping (adding `N` when negative) and
    clamping into `[0, N − 1]`. -/
theorem wrapped_clamped_of_lands {N : Nat} (c : BitVec 32) (n : Nat) (hn : n < N) (hc : c.toInt = (n : Int)) :
    min (Scalar.select (IntOp.cmpi .slt c 0#32) (IntOp.addi c (BitVec.ofNat 32 N)) c).toInt.toNat (N - 1) = n :=
  wrap_clamp_of_toInt_eq c (BitVec.ofNat 32 N) n hn hc

end Idealize.ShloMosaic.NormalizedAggregate
-- ==== Proof.BridgeFacts.lean ====
/-
  Facts about the stages the two programs share, read at coordinates on the extended reals: the per-node factor is a
  nonnegative real at every node; a destination number that names a node in range is left alone by the wrap and the
  clamp of a gather's index; the accumulators start at zero; the factor column laid against the columns reads the
  node's factor; and the per-edge scale of the reference, laid against the columns, is the factor gathered at the
  edge's source times the factor gathered at its destination.
-/
import proofs.«141974_j28269474742564_2_alg».proof.Proof.RefReadP
import proofs.«141974_j28269474742564_2_alg».proof.Proof.KernelStages
import proofs.«141974_j28269474742564_2_alg».proof.Proof.LibNormalizedAggregate

set_option maxRecDepth 16384

noncomputable section

namespace Cert.Bridge

open Idealize.ShloMosaic Idealize.ShloMosaic.ValueIdx Idealize.ShloMosaic.RowIndex Idealize.ShloMosaic.NormalizedAggregate

/-! ## The dimension records' side conditions, at literal extents -/

theorem wfS4 : ScatterDims.WF ⟨2, ![500000, 4]⟩ ⟨2, ![16500000, 1]⟩ ⟨2, ![16500000, 4]⟩ [1] [0] [0] 1 :=
  Cert.ReferenceIdeal.Gen.scatter_S500000x4_S16500000x1_S16500000x4_1_0_0_1_wf
theorem wfG4 : GatherDims.WF ⟨2, ![500000, 4]⟩ ⟨2, ![16500000, 1]⟩ ⟨2, ![16500000, 4]⟩ [1] [0] [] [0] [] 1 ![1, 4] :=
  Cert.ReferenceIdeal.Gen.gather_S500000x4_S16500000x1_S16500000x4_1_0_n_n_0_1_14_wf
theorem wfS2 : ScatterDims.WF ⟨2, ![500000, 2]⟩ ⟨2, ![16500000, 1]⟩ ⟨2, ![16500000, 2]⟩ [1] [0] [0] 1 :=
  Cert.ReferenceIdeal.Gen.scatter_S500000x2_S16500000x1_S16500000x2_1_0_0_1_wf
theorem wfG2 : GatherDims.WF ⟨2, ![500000, 2]⟩ ⟨2, ![16500000, 1]⟩ ⟨2, ![16500000, 2]⟩ [1] [0] [] [0] [] 1 ![1, 2] :=
  Cert.ReferenceIdeal.Gen.gather_S500000x2_S16500000x1_S16500000x2_1_0_n_n_0_1_12_wf
theorem wfV : GatherDims.WF ⟨1, ![500000]⟩ ⟨2, ![16500000, 1]⟩ ⟨1, ![16500000]⟩ [] [0] [] [0] [] 1 ![1] :=
  Cert.ReferenceIdeal.Gen.gather_S500000_S16500000x1_S16500000_n_0_n_n_0_1_1_wf

/-! ## The factor -/

/-- The per-node factor is a nonnegative real at every node, whatever the degree. -/
theorem factor_real (x1 : (⟨Cert.ReferenceIdeal.S2x16000000, .i32⟩ : BufTy).Contents (Elt Ideal)) (i : (⟨1, ![500000]⟩ : Shape).Idx) :
    ∃ r : ℝ, 0 ≤ r ∧ Cert.ReferenceIdeal.ReadP.val_main_v14 (F := Ideal) x1 i = (r : EReal) := by
  obtain ⟨r, hr, e⟩ := ERealSum.guarded_rsqrt_real (Cert.ReferenceIdeal.ReadP.val_main_v10 (F := Ideal) x1 i)
  refine ⟨r, hr, ?_⟩
  rw [← e, Cert.ReferenceIdeal.ReadP.val_main_v14_apply, Cert.ReferenceIdeal.ReadP.val_main_v12_apply, Cert.ReferenceIdeal.ReadP.val_main_v13_apply, Cert.ReferenceIdeal.ReadP.val_main_v11_apply,
    Cert.ReferenceIdeal.ReadP.val_main_cst_1_apply, Cert.ReferenceIdeal.ReadP.val_main_call0_v1_apply, Cert.ReferenceIdeal.ReadP.val_main_call0_v0_apply, Cert.ReferenceIdeal.ReadP.val_main_cst_2_apply]
  simp only [Ideal.ofBits_def, Ideal.ofBits_zero_f32, Ideal.cmpf_def, Ideal.hostUnary_rsqrt_def]

/-! ## The accumulators start at zero -/

theorem zeros4 (i : (⟨2, ![500000, 4]⟩ : Shape).Idx) : Cert.ReferenceIdeal.ReadP.val_main_v41 (F := Ideal) i = 0 := by
  rw [Cert.ReferenceIdeal.ReadP.val_main_v41_apply, Cert.ReferenceIdeal.ReadP.val_main_cst_8_apply]
  simp only [Ideal.ofBits_def, Ideal.ofBits_zero_f32]
theorem zeros2 (i : (⟨2, ![500000, 2]⟩ : Shape).Idx) : Cert.ReferenceIdeal.ReadP.val_main_v77 (F := Ideal) i = 0 := by
  rw [Cert.ReferenceIdeal.ReadP.val_main_v77_apply, Cert.ReferenceIdeal.ReadP.val_main_cst_14_apply]
  simp only [Ideal.ofBits_def, Ideal.ofBits_zero_f32]

/-! ## Where the column layouts read -/

/-- A vector laid out as a column reads, at row `e`, its entry `e`. -/
theorem column_idx (e : Fin 16500000) (i : (⟨2, ![16500000, 1]⟩ : Shape).Idx) (hi : i = atRow e)
    (f : (⟨2, ![16500000, 1]⟩ : Shape).Idx → (⟨1, ![16500000]⟩ : Shape).Idx)
    (hf : ∀ j, (f j 0).val = (j 0).val) : f i = ix1 e := by
  subst hi
  funext a
  match a with
  | ⟨0, _⟩ => exact Fin.ext (hf _)

/-! ## A destination in range -/

/-- The column of destinations reads, at row `e`, the destination of edge `e`. -/
theorem dests_at (x1 : (⟨Cert.ReferenceIdeal.S2x16000000, .i32⟩ : BufTy).Contents (Elt Ideal)) (e : Fin 16500000) :
    Cert.ReferenceIdeal.ReadP.val_main_v42 (F := Ideal) x1 (atRow e) = Cert.ReferenceIdeal.ReadP.val_main_v6 (F := Ideal) x1 (ix1 e) := by
  rw [Cert.ReferenceIdeal.ReadP.val_main_v42_apply]
  exact congrArg _ (column_idx e _ rfl _ fun _ => rfl)

/-- The column a gather of the factor at the destinations is indexed by reads, at row `e`, the destination of edge
    `e` with the number of nodes added when it is negative. -/
theorem wrapped_dests_at (x1 : (⟨Cert.ReferenceIdeal.S2x16000000, .i32⟩ : BufTy).Contents (Elt Ideal)) (e : Fin 16500000) :
    Cert.ReferenceIdeal.ReadP.val_main_v27 (F := Ideal) x1 (atRow e)
      = Scalar.select (IntOp.cmpi .slt (Cert.ReferenceIdeal.ReadP.val_main_v6 (F := Ideal) x1 (ix1 e)) 0#32)
          (IntOp.addi (Cert.ReferenceIdeal.ReadP.val_main_v6 (F := Ideal) x1 (ix1 e)) (BitVec.ofNat 32 500000)) (Cert.ReferenceIdeal.ReadP.val_main_v6 (F := Ideal) x1 (ix1 e)) := by
  rw [Cert.ReferenceIdeal.ReadP.val_main_v27_apply, Cert.ReferenceIdeal.ReadP.val_main_v26_apply, Cert.ReferenceIdeal.ReadP.val_main_v23_apply, Cert.ReferenceIdeal.ReadP.val_main_v25_apply,
    Cert.ReferenceIdeal.ReadP.val_main_v22_apply, Cert.ReferenceIdeal.ReadP.val_main_v24_apply, Cert.ReferenceIdeal.ReadP.val_main_c_4_apply, Cert.ReferenceIdeal.ReadP.val_main_c_5_apply,
    column_idx e _ rfl Cert.ReferenceIdeal.ReadP.idx_main_v27 fun _ => rfl]

/-- An edge whose destination number, read signed, is a node `n` in range is gathered at `n`. -/
theorem dests_land (x1 : (⟨Cert.ReferenceIdeal.S2x16000000, .i32⟩ : BufTy).Contents (Elt Ideal)) (e : Fin 16500000) (n : Nat) (hn : n < 500000)
    (h : (Cert.ReferenceIdeal.ReadP.val_main_v42 (F := Ideal) x1 (atRow e)).toInt = (n : Int)) :
    min (Cert.ReferenceIdeal.ReadP.val_main_v27 (F := Ideal) x1 (atRow e)).toInt.toNat (500000 - 1) = n := by
  rw [dests_at] at h
  rw [wrapped_dests_at]
  exact wrapped_clamped_of_lands _ n hn h

/-! ## The factor column against the columns -/

/-- The kernel's factor is the reference's: the same lines of the same edge array. -/
theorem factor_eq (x1 : (⟨Cert.ReferenceIdeal.S2x16000000, .i32⟩ : BufTy).Contents (Elt Ideal)) : Cert.KernelIdeal.Stages.factor (F := Ideal) x1 = Cert.ReferenceIdeal.ReadP.val_main_v14 (F := Ideal) x1 := rfl

theorem factor4_apply (x1 : (⟨Cert.ReferenceIdeal.S2x16000000, .i32⟩ : BufTy).Contents (Elt Ideal)) (n : Fin 500000) (c : Fin 4) :
    Cert.KernelIdeal.Stages.factor4 (Cert.KernelIdeal.Stages.factorColumn (F := Ideal) x1) (ix2 n c) = Cert.ReferenceIdeal.ReadP.val_main_v14 (F := Ideal) x1 (ix1 n) := by
  rw [← factor_eq]
  exact broadcastInDim_column_apply (Cert.KernelIdeal.Stages.factor (F := Ideal) x1) _ _ n c
theorem factor2_apply (x1 : (⟨Cert.ReferenceIdeal.S2x16000000, .i32⟩ : BufTy).Contents (Elt Ideal)) (n : Fin 500000) (c : Fin 2) :
    Cert.KernelIdeal.Stages.factor2 (Cert.KernelIdeal.Stages.factorColumn (F := Ideal) x1) (ix2 n c) = Cert.ReferenceIdeal.ReadP.val_main_v14 (F := Ideal) x1 (ix1 n) := by
  rw [← factor_eq]
  exact broadcastInDim_column_apply (Cert.KernelIdeal.Stages.factor (F := Ideal) x1) _ _ n c

/-! ## The reference's per-edge scale against the columns -/

/-- The per-edge scale: the factor gathered at the edge's source times the factor gathered at its destination. -/
theorem scale_at (x1 : (⟨Cert.ReferenceIdeal.S2x16000000, .i32⟩ : BufTy).Contents (Elt Ideal)) (e : Fin 16500000) :
    Cert.ReferenceIdeal.ReadP.val_main_v29 (F := Ideal) x1 (ix1 e)
      = Host.gather (vecDims 500000 16500000 wfV) (Cert.ReferenceIdeal.ReadP.val_main_v14 (F := Ideal) x1) (Cert.ReferenceIdeal.ReadP.val_main_v37 (F := Ideal) x1) (ix1 e)
        * Host.gather (vecDims 500000 16500000 wfV) (Cert.ReferenceIdeal.ReadP.val_main_v14 (F := Ideal) x1) (Cert.ReferenceIdeal.ReadP.val_main_v27 (F := Ideal) x1) (ix1 e) := by
  rw [Cert.ReferenceIdeal.ReadP.val_main_v29_apply]
  rfl

theorem norm4_apply (x1 : (⟨Cert.ReferenceIdeal.S2x16000000, .i32⟩ : BufTy).Contents (Elt Ideal)) (e : Fin 16500000) (c : Fin 4) :
    Cert.ReferenceIdeal.ReadP.val_main_v39 (F := Ideal) x1 (ix2 e c)
      = Host.gather (vecDims 500000 16500000 wfV) (Cert.ReferenceIdeal.ReadP.val_main_v14 (F := Ideal) x1) (Cert.ReferenceIdeal.ReadP.val_main_v37 (F := Ideal) x1) (ix1 e)
        * Host.gather (vecDims 500000 16500000 wfV) (Cert.ReferenceIdeal.ReadP.val_main_v14 (F := Ideal) x1) (Cert.ReferenceIdeal.ReadP.val_main_v27 (F := Ideal) x1) (ix1 e) := by
  rw [Cert.ReferenceIdeal.ReadP.val_main_v39_apply, Cert.ReferenceIdeal.ReadP.val_main_v31_apply,
    show Cert.ReferenceIdeal.ReadP.idx_main_v31 (Cert.ReferenceIdeal.ReadP.idx_main_v39 (ix2 e c)) = ix1 e from
      funext fun a => by match a with | ⟨0, _⟩ => exact Fin.ext rfl]
  exact scale_at x1 e
theorem norm2_apply (x1 : (⟨Cert.ReferenceIdeal.S2x16000000, .i32⟩ : BufTy).Contents (Elt Ideal)) (e : Fin 16500000) (c : Fin 2) :
    Cert.ReferenceIdeal.ReadP.val_main_v75 (F := Ideal) x1 (ix2 e c)
      = Host.gather (vecDims 500000 16500000 wfV) (Cert.ReferenceIdeal.ReadP.val_main_v14 (F := Ideal) x1) (Cert.ReferenceIdeal.ReadP.val_main_v37 (F := Ideal) x1) (ix1 e)
        * Host.gather (vecDims 500000 16500000 wfV) (Cert.ReferenceIdeal.ReadP.val_main_v14 (F := Ideal) x1) (Cert.ReferenceIdeal.ReadP.val_main_v27 (F := Ideal) x1) (ix1 e) := by
  rw [Cert.ReferenceIdeal.ReadP.val_main_v75_apply, Cert.ReferenceIdeal.ReadP.val_main_v67_apply,
    show Cert.ReferenceIdeal.ReadP.idx_main_v67 (Cert.ReferenceIdeal.ReadP.idx_main_v75 (ix2 e c)) = ix1 e from
      funext fun a => by match a with | ⟨0, _⟩ => exact Fin.ext rfl]
  exact scale_at x1 e

end Cert.Bridge

end
-- ==== Proof.Bridge.lean ====
/-
  The kernel's result and the reference's are one function of the argument arrays, on the extended reals.

  Both programs build the same edge lists (with a self loop per node), the same degrees and the same per-node factor
  d (the inverse square root of a positive degree, else zero: a nonnegative real at every node). A layer of the
  reference gathers the rows of y = h·W at every edge's source, scales the row of edge e by d(source e)·d(dest e) and
  sums the scaled rows at the edges' destinations. A layer of the kernel scales the rows of y by d first, gathers and
  sums them, and scales the sum at node n by d(n). An edge that lands on n has destination n, so the two are
  d(n)·Σ d(s)·y(s,·) and Σ (d(s)·d(n))·y(s,·) over the same edges: equal, because a nonnegative real factor
  distributes over any finite sum of extended reals. The first layer's scaled rows come out of the region as
  d(p)·Σⱼ x(p,j)·W₁(j,q), which is the factor against the host's product x·W₁ at (p,q). Everything else in the two
  programs — biases, rectifiers, the later products — is the same operation applied to equal operands.
-/
import proofs.«141974_j28269474742564_2_alg».proof.Proof.RefReadP
import proofs.«141974_j28269474742564_2_alg».proof.Proof.KernelValue
import proofs.«141974_j28269474742564_2_alg».proof.Proof.BridgeFacts

set_option maxRecDepth 16384

noncomputable section

namespace Cert.Bridge

open Idealize.ShloMosaic Idealize.ShloMosaic.ValueIdx Idealize.ShloMosaic.RowIndex Idealize.ShloMosaic.NormalizedAggregate

/-- One layer's aggregate, four columns wide: the kernel's arrangement of rows `y` scaled by the factor is the
    reference's arrangement of `y`. -/
theorem aggregate4_eq (x1 : (⟨Cert.ReferenceIdeal.S2x16000000, .i32⟩ : BufTy).Contents (Elt Ideal)) (y : FVec Ideal ⟨2, ![500000, 4]⟩ .f32) :
    Cert.KernelIdeal.Stages.aggregate4 (Cert.KernelIdeal.Stages.sources x1) (Cert.KernelIdeal.Stages.dests x1) (Cert.KernelIdeal.Stages.factorColumn x1)
        (mulf (Cert.KernelIdeal.Stages.factor4 (Cert.KernelIdeal.Stages.factorColumn x1)) y)
      = Host.scatterAdd Cert.ReferenceIdeal.scatter_S500000x4_S16500000x1_S16500000x4_1_0_0_1 (Cert.ReferenceIdeal.ReadP.val_main_v41 (F := Ideal)) (Cert.ReferenceIdeal.ReadP.val_main_v42 x1)
          (mulf (Cert.ReferenceIdeal.ReadP.val_main_v39 x1) (Host.gather Cert.ReferenceIdeal.gather_S500000x4_S16500000x1_S16500000x4_1_0_n_n_0_1_14 y (Cert.ReferenceIdeal.ReadP.val_main_v37 x1))) := by
  funext i
  obtain ⟨n, c, rfl⟩ : ∃ (n : Fin 500000) (c : Fin 4), i = ix2 n c := ⟨i 0, i 1, eq_ix2 i⟩
  exact aggregate_eq (N := 500000) (D := 4) (E := 16500000) (by decide) wfS4 wfG4 wfV
    (Cert.ReferenceIdeal.ReadP.val_main_v14 (F := Ideal) x1) (factor_real x1) (Cert.ReferenceIdeal.ReadP.val_main_v42 x1) (Cert.ReferenceIdeal.ReadP.val_main_v37 x1) (Cert.ReferenceIdeal.ReadP.val_main_v27 x1)
    (dests_land x1) (Cert.ReferenceIdeal.ReadP.val_main_v41 (F := Ideal)) (Cert.ReferenceIdeal.ReadP.val_main_v41 (F := Ideal)) zeros4 zeros4
    (Cert.KernelIdeal.Stages.factor4 (Cert.KernelIdeal.Stages.factorColumn x1)) (factor4_apply x1) (Cert.ReferenceIdeal.ReadP.val_main_v39 x1) (norm4_apply x1) y n c

/-- The same, two columns wide. -/
theorem aggregate2_eq (x1 : (⟨Cert.ReferenceIdeal.S2x16000000, .i32⟩ : BufTy).Contents (Elt Ideal)) (y : FVec Ideal ⟨2, ![500000, 2]⟩ .f32) :
    Cert.KernelIdeal.Stages.aggregate2 (Cert.KernelIdeal.Stages.sources x1) (Cert.KernelIdeal.Stages.dests x1) (Cert.KernelIdeal.Stages.factorColumn x1)
        (mulf (Cert.KernelIdeal.Stages.factor2 (Cert.KernelIdeal.Stages.factorColumn x1)) y)
      = Host.scatterAdd Cert.ReferenceIdeal.scatter_S500000x2_S16500000x1_S16500000x2_1_0_0_1 (Cert.ReferenceIdeal.ReadP.val_main_v77 (F := Ideal)) (Cert.ReferenceIdeal.ReadP.val_main_v78 x1)
          (mulf (Cert.ReferenceIdeal.ReadP.val_main_v75 x1) (Host.gather Cert.ReferenceIdeal.gather_S500000x2_S16500000x1_S16500000x2_1_0_n_n_0_1_12 y (Cert.ReferenceIdeal.ReadP.val_main_v73 x1))) := by
  funext i
  obtain ⟨n, c, rfl⟩ : ∃ (n : Fin 500000) (c : Fin 2), i = ix2 n c := ⟨i 0, i 1, eq_ix2 i⟩
  exact aggregate_eq (N := 500000) (D := 2) (E := 16500000) (by decide) wfS2 wfG2 wfV
    (Cert.ReferenceIdeal.ReadP.val_main_v14 (F := Ideal) x1) (factor_real x1) (Cert.ReferenceIdeal.ReadP.val_main_v78 x1) (Cert.ReferenceIdeal.ReadP.val_main_v73 x1) (Cert.ReferenceIdeal.ReadP.val_main_v27 x1)
    (dests_land x1) (Cert.ReferenceIdeal.ReadP.val_main_v77 (F := Ideal)) (Cert.ReferenceIdeal.ReadP.val_main_v77 (F := Ideal)) zeros2 zeros2
    (Cert.KernelIdeal.Stages.factor2 (Cert.KernelIdeal.Stages.factorColumn x1)) (factor2_apply x1) (Cert.ReferenceIdeal.ReadP.val_main_v75 x1) (norm2_apply x1) y n c

/-- The region's result: the factor of a row times the row's product with the first weight matrix is the factor laid
    against the host's product of the node features with that matrix. -/
theorem regionRows_eq (x0 : (⟨Cert.ReferenceIdeal.S500000x128, .f32⟩ : BufTy).Contents (Elt Ideal)) (x1 : (⟨Cert.ReferenceIdeal.S2x16000000, .i32⟩ : BufTy).Contents (Elt Ideal)) (x2 : (⟨Cert.ReferenceIdeal.S128x4, .f32⟩ : BufTy).Contents (Elt Ideal)) :
    Cert.KernelIdeal.Blocks.G x0 x2 (Cert.KernelIdeal.Stages.factorColumn x1)
      = mulf (Cert.KernelIdeal.Stages.factor4 (Cert.KernelIdeal.Stages.factorColumn x1)) (Cert.ReferenceIdeal.ReadP.val_main_v30 (F := Ideal) x0 x2) := by
  funext i
  obtain ⟨p, q, rfl⟩ : ∃ (p : Fin 500000) (q : Fin 4), i = ix2 p q := ⟨i 0, i 1, eq_ix2 i⟩
  rw [mulf_apply]
  show Cert.KernelIdeal.Stages.factorColumn x1 (ix2 p (0 : Fin 1)) * ∑ j : Fin 128, x0 (ix2 p j) * x2 (ix2 j q) = _
  refine congrArg₂ (· * ·) ?_ ?_
  · exact (broadcastInDim_a1_ab_apply (Cert.KernelIdeal.Stages.factorColumn x1) _ p q).symm
  · exact (dotGeneral_ix2 Cert.ReferenceIdeal.dot_S500000x128_S128x4_S500000x4_1_0_0_1_n_n rfl rfl rfl rfl rfl rfl none .single x0 x2 p q).symm

set_option maxHeartbeats 4000000 in
/-- The two programs' results are one function of the argument arrays. -/
theorem result_eq (x0 : (⟨Cert.ReferenceIdeal.S500000x128, .f32⟩ : BufTy).Contents (Elt Ideal)) (x1 : (⟨Cert.ReferenceIdeal.S2x16000000, .i32⟩ : BufTy).Contents (Elt Ideal)) (x2 : (⟨Cert.ReferenceIdeal.S128x4, .f32⟩ : BufTy).Contents (Elt Ideal)) (x3 : (⟨Cert.ReferenceIdeal.S4, .f32⟩ : BufTy).Contents (Elt Ideal))
    (x4 : (⟨Cert.ReferenceIdeal.S4x4, .f32⟩ : BufTy).Contents (Elt Ideal)) (x5 : (⟨Cert.ReferenceIdeal.S4, .f32⟩ : BufTy).Contents (Elt Ideal)) (x6 : (⟨Cert.ReferenceIdeal.S4x2, .f32⟩ : BufTy).Contents (Elt Ideal)) (x7 : (⟨Cert.ReferenceIdeal.S2, .f32⟩ : BufTy).Contents (Elt Ideal)) :
    Cert.KernelIdeal.Result.kernelResult x0 x1 x2 x3 x4 x5 x6 x7 = Cert.ReferenceIdeal.ReadP.val_main_v82 (F := Ideal) x0 x1 x2 x3 x4 x5 x6 x7 := by
  unfold Cert.KernelIdeal.Result.kernelResult Cert.KernelIdeal.Stages.layers
  rw [regionRows_eq x0 x1 x2]
  simp only [aggregate4_eq, aggregate2_eq]
  rfl

end Cert.Bridge

end
-- ==== Proof.lean ====
/-
  The claim: the kernel program and its idealization run to the end without a fault and leave their arguments
  unchanged, so does the idealized reference, and the two idealized programs, run from memories that agree on the
  arguments, end with equal results on the extended reals.

  The kernel's programs are host lines, one region on a grid of 100 points, and host lines; their frames and the value
  of every buffer at the end come from the run around the region (Proof/FrameKernel.lean, Proof/FrameKernelIdeal.lean).
  The reference is host lines only: its run is read operation by operation (Proof/RefRunP.lean, Proof/RefReadP.lean).
  The kernel's result is three graph-convolution layers in which the per-node factor scales the rows before the
  edge gather and the sums after the scatter (Proof/KernelValue.lean); the reference scales every edge's row by the
  product of the two factors. The two agree because the factor is a nonnegative real and such a factor distributes
  over a finite sum of extended reals (Proof/Bridge.lean). The idealization rewrote nothing, so there is nothing to
  preserve.
-/
import proofs.«141974_j28269474742564_2_alg».proof.Defs
import proofs.«141974_j28269474742564_2_alg».proof.Proof.Gen.Kernel
import proofs.«141974_j28269474742564_2_alg».proof.Proof.Gen.KernelIdeal
import proofs.«141974_j28269474742564_2_alg».proof.Proof.Gen.ReferenceIdeal
import proofs.«141974_j28269474742564_2_alg».proof.Proof.Gen.Pre_finite_inputs
import proofs.«141974_j28269474742564_2_alg».proof.Proof.FrameKernel
import proofs.«141974_j28269474742564_2_alg».proof.Proof.FrameKernelIdeal
import proofs.«141974_j28269474742564_2_alg».proof.Proof.KernelValue
import proofs.«141974_j28269474742564_2_alg».proof.Proof.RefReadP
import proofs.«141974_j28269474742564_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the result's buffer at the kernel's function of the argument arrays: the kernel
    by its run around the region, the reference by its run read stage by stage and the equality of the two functions. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v82_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
